-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v31_1)) (v1 : (c : Dev Cert.KernelIdeal.nD) → Buf (Elt Ideal) ((c.tc : Thread Cert.KernelIdeal.nD Cert.KernelIdeal.τ).loc Cert.KernelIdeal.main_v31_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31_1) = v0 c
          ∧ r.2.mem ((c.tc : Thread Cert.KernelIdeal.nD Cert.KernelIdeal.τ).loc Cert.KernelIdeal.main_v31_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x256 : Shape := ⟨2, ![300000, 256]⟩
abbrev S2x4800000 : Shape := ⟨2, ![2, 4800000]⟩
abbrev S4800000 : Shape := ⟨1, ![4800000]⟩
abbrev S300000x32 : Shape := ⟨2, ![300000, 32]⟩
abbrev S2x288x32 : Shape := ⟨3, ![2, 288, 32]⟩
abbrev S32 : Shape := ⟨1, ![32]⟩
abbrev S32x3 : Shape := ⟨2, ![32, 3]⟩
abbrev S3 : Shape := ⟨1, ![3]⟩
abbrev S_ : Shape := ⟨0, ![]⟩

class Facts : Prop where
  bcast_S_S300000x256 : S_.BroadcastsInDim S300000x256 (![] : Fin 0 → Fin S300000x256.rank)
  reducesTo_S300000x256_S_d0_1 : S300000x256.ReducesTo [0, 1] S_
  h_S_ : 0 < S_.numel
  bcast_S_S4800000 : S_.BroadcastsInDim S4800000 (![] : Fin 0 → Fin S4800000.rank)
  reducesTo_S4800000_S_d0 : S4800000.ReducesTo [0] S_
  bcast_S_S300000x32 : S_.BroadcastsInDim S300000x32 (![] : Fin 0 → Fin S300000x32.rank)
  reducesTo_S300000x32_S_d0_1 : S300000x32.ReducesTo [0, 1] S_
  bcast_S_S2x288x32 : S_.BroadcastsInDim S2x288x32 (![] : Fin 0 → Fin S2x288x32.rank)
  reducesTo_S2x288x32_S_d0_1_2 : S2x288x32.ReducesTo [0, 1, 2] S_
  bcast_S_S32 : S_.BroadcastsInDim S32 (![] : Fin 0 → Fin S32.rank)
  reducesTo_S32_S_d0 : S32.ReducesTo [0] S_
  bcast_S_S32x3 : S_.BroadcastsInDim S32x3 (![] : Fin 0 → Fin S32x3.rank)
  reducesTo_S32x3_S_d0_1 : S32x3.ReducesTo [0, 1] S_
  bcast_S_S3 : S_.BroadcastsInDim S3 (![] : Fin 0 → Fin S3.rank)
  reducesTo_S3_S_d0 : S3.ReducesTo [0] S_

variable [Facts]

def fn_part3 {F : FTy → Type} [FloatOps F] (main_v48 : IVec S_ 1) (main_v49 : FVec F S3 .f32) (main_v50 : FVec F S3 .f32) : IVec S_ 1 :=
  let main_v51 : IVec S3 1 := cmpf .olt main_v49 main_v50
  let main_c_19 : IVec S_ 1 := constantI S_ 1 1#1
  let main_v52 : IVec S_ 1 := (fun x v => Host.reduce IntOp.andi x v reducesTo_S3_S_d0 h_S_) main_v51 main_c_19
  let main_v53 : IVec S_ 1 := andi main_v48 main_v52
  main_v53

def fn_part2 {F : FTy → Type} [FloatOps F] (main_arg8 : FVec F S2x288x32 .f32) (main_arg9 : FVec F S32 .f32) (main_arg10 : FVec F S32x3 .f32) (main_arg11 : FVec F S3 .f32) (main_v33 : IVec S_ 1) : IVec S_ 1 :=
  let main_v34 : FVec F S2x288x32 .f32 := Host.absf main_arg8
  let main_cst_12 : FVec F S_ .f32 := constant S_ .f32 0x7F800000#32
  let main_v35 : FVec F S2x288x32 .f32 := broadcastInDim S2x288x32 ![] bcast_S_S2x288x32 main_cst_12
  let main_v36 : IVec S2x288x32 1 := cmpf .olt main_v34 main_v35
  let main_c_13 : IVec S_ 1 := constantI S_ 1 1#1
  let main_v37 : IVec S_ 1 := (fun x v => Host.reduce IntOp.andi x v reducesTo_S2x288x32_S_d0_1_2 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x3 .f32 := Host.absf main_arg10
  let main_cst_16 : FVec F S_ .f32 := constant S_ .f32 0x7F800000#32
  let main_v45 : FVec F S32x3 .f32 := broadcastInDim S32x3 ![] bcast_S_S32x3 main_cst_16
  let main_v46 : IVec S32x3 1 := cmpf .olt main_v44 main_v45
  let main_c_17 : IVec S_ 1 := constantI S_ 1 1#1
  let main_v47 : IVec S_ 1 := (fun x v => Host.reduce IntOp.andi x v reducesTo_S32x3_S_d0_1 h_S_) main_v46 main_c_17
  let main_v48 : IVec S_ 1 := andi main_v43 main_v47
  let main_v49 : FVec F S3 .f32 := Host.absf main_arg11
  let main_cst_18 : FVec F S_ .f32 := constant S_ .f32 0x7F800000#32
  let main_v50 : FVec F S3 .f32 := broadcastInDim S3 ![] bcast_S_S3 main_cst_18
  fn_part3 (F := F) main_v48 main_v49 main_v50

def fn_part1 {F : FTy → Type} [FloatOps F] (main_arg5 : FVec F S32 .f32) (main_arg6 : FVec F S2x288x32 .f32) (main_arg7 : FVec F S32 .f32) (main_arg8 : FVec F S2x288x32 .f32) (main_arg9 : FVec F S32 .f32) (main_arg10 : FVec F S32x3 .f32) (main_arg11 : FVec F S3 .f32) (main_v13 : IVec S_ 1) (main_v16 : IVec S2x288x32 1) : IVec S_ 1 :=
  let main_c_5 : IVec S_ 1 := constantI S_ 1 1#1
  let main_v17 : IVec S_ 1 := (fun x v => Host.reduce IntOp.andi x v reducesTo_S2x288x32_S_d0_1_2 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S2x288x32 .f32 := Host.absf main_arg6
  let main_cst_8 : FVec F S_ .f32 := constant S_ .f32 0x7F800000#32
  let main_v25 : FVec F S2x288x32 .f32 := broadcastInDim S2x288x32 ![] bcast_S_S2x288x32 main_cst_8
  let main_v26 : IVec S2x288x32 1 := cmpf .olt main_v24 main_v25
  let main_c_9 : IVec S_ 1 := constantI S_ 1 1#1
  let main_v27 : IVec S_ 1 := (fun x v => Host.reduce IntOp.andi x v reducesTo_S2x288x32_S_d0_1_2 h_S_) main_v26 main_c_9
  let main_v28 : IVec S_ 1 := andi main_v23 main_v27
  let main_v29 : FVec F S32 .f32 := Host.absf main_arg7
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S300000x256 .f32) (main_arg1 : IVec S2x4800000 32) (main_arg2 : FVec F S4800000 .f32) (main_arg3 : FVec F S300000x32 .f32) (main_arg4 : FVec F S2x288x32 .f32) (main_arg5 : FVec F S32 .f32) (main_arg6 : FVec F S2x288x32 .f32) (main_arg7 : FVec F S32 .f32) (main_arg8 : FVec F S2x288x32 .f32) (main_arg9 : FVec F S32 .f32) (main_arg10 : FVec F S32x3 .f32) (main_arg11 : FVec F S3 .f32) : IVec S_ 1 :=
  let main_v0 : FVec F S300000x256 .f32 := Host.absf main_arg0
  let main_cst : FVec F S_ .f32 := constant S_ .f32 0x7F800000#32
  let main_v1 : FVec F S300000x256 .f32 := broadcastInDim S300000x256 ![] bcast_S_S300000x256 main_cst
  let main_v2 : IVec S300000x256 1 := cmpf .olt main_v0 main_v1
  let main_c : IVec S_ 1 := constantI S_ 1 1#1
  let main_v3 : IVec S_ 1 := (fun x v => Host.reduce IntOp.andi x v reducesTo_S300000x256_S_d0_1 h_S_) main_v2 main_c
  let main_v4 : FVec F S4800000 .f32 := Host.absf main_arg2
  let main_cst_0 : FVec F S_ .f32 := constant S_ .f32 0x7F800000#32
  let main_v5 : FVec F S4800000 .f32 := broadcastInDim S4800000 ![] bcast_S_S4800000 main_cst_0
  let main_v6 : IVec S4800000 1 := cmpf .olt main_v4 main_v5
  let main_c_1 : IVec S_ 1 := constantI S_ 1 1#1
  let main_v7 : IVec S_ 1 := (fun x v => Host.reduce IntOp.andi x v reducesTo_S4800000_S_d0 h_S_) main_v6 main_c_1
  let main_v8 : IVec S_ 1 := andi main_v3 main_v7
  let main_v9 : FVec F S300000x32 .f32 := Host.absf main_arg3
  let main_cst_2 : FVec F S_ .f32 := constant S_ .f32 0x7F800000#32
  let main_v10 : FVec F S300000x32 .f32 := broadcastInDim S300000x32 ![] bcast_S_S300000x32 main_cst_2
  let main_v11 : IVec S300000x32 1 := cmpf .olt main_v9 main_v10
  let main_c_3 : IVec S_ 1 := constantI S_ 1 1#1
  let main_v12 : IVec S_ 1 := (fun x v => Host.reduce IntOp.andi x v reducesTo_S300000x32_S_d0_1 h_S_) main_v11 main_c_3
  let main_v13 : IVec S_ 1 := andi main_v8 main_v12
  let main_v14 : FVec F S2x288x32 .f32 := Host.absf main_arg4
  let main_cst_4 : FVec F S_ .f32 := constant S_ .f32 0x7F800000#32
  let main_v15 : FVec F S2x288x32 .f32 := broadcastInDim S2x288x32 ![] bcast_S_S2x288x32 main_cst_4
  let main_v16 : IVec S2x288x32 1 := cmpf .olt main_v14 main_v15
  fn_part1 (F := F) main_arg5 main_arg6 main_arg7 main_arg8 main_arg9 main_arg10 main_arg11 main_v13 main_v16
-- ==== Kernel.lean ====
abbrev S300000x256 : Shape := ⟨2, ![300000, 256]⟩
abbrev S2x4800000 : Shape := ⟨2, ![2, 4800000]⟩
abbrev S4800000 : Shape := ⟨1, ![4800000]⟩
abbrev S300000x32 : Shape := ⟨2, ![300000, 32]⟩
abbrev S2x288x32 : Shape := ⟨3, ![2, 288, 32]⟩
abbrev S32 : Shape := ⟨1, ![32]⟩
abbrev S32x3 : Shape := ⟨2, ![32, 3]⟩
abbrev S3 : Shape := ⟨1, ![3]⟩
abbrev S1x288x32 : Shape := ⟨3, ![1, 288, 32]⟩
abbrev S288x32 : Shape := ⟨2, ![288, 32]⟩
abbrev S256x32 : Shape := ⟨2, ![256, 32]⟩
abbrev S32x32 : Shape := ⟨2, ![32, 32]⟩
abbrev S256x96 : Shape := ⟨2, ![256, 96]⟩
abbrev S32x64 : Shape := ⟨2, ![32, 64]⟩
abbrev S64 : Shape := ⟨1, ![64]⟩
abbrev S1x64 : Shape := ⟨2, ![1, 64]⟩
abbrev S1x32 : Shape := ⟨2, ![1, 32]⟩
abbrev S1x3 : Shape := ⟨2, ![1, 3]⟩
abbrev S300000x3 : Shape := ⟨2, ![300000, 3]⟩
abbrev S4000x256 : Shape := ⟨2, ![4000, 256]⟩
abbrev S4000x32 : Shape := ⟨2, ![4000, 32]⟩
abbrev S4000x3 : Shape := ⟨2, ![4000, 3]⟩
abbrev S4000x96 : Shape := ⟨2, ![4000, 96]⟩
abbrev S4000x64 : Shape := ⟨2, ![4000, 64]⟩

abbrev nBuf : Space → Nat
  | .hbm => 45
  | .vmem => 15
  | .smem => 0
  | _ => 0

abbrev bufTy : (tb : Table) → Fin (tcTables nBuf tb) → BufTy
  | .hbm, ⟨0, _⟩ => ⟨S300000x256, .f32⟩
  | .hbm, ⟨1, _⟩ => ⟨S2x4800000, .i32⟩
  | .hbm, ⟨2, _⟩ => ⟨S4800000, .f32⟩
  | .hbm, ⟨3, _⟩ => ⟨S300000x32, .f32⟩
  | .hbm, ⟨4, _⟩ => ⟨S2x288x32, .f32⟩
  | .hbm, ⟨5, _⟩ => ⟨S32, .f32⟩
  | .hbm, ⟨6, _⟩ => ⟨S2x288x32, .f32⟩
  | .hbm, ⟨7, _⟩ => ⟨S32, .f32⟩
  | .hbm, ⟨8, _⟩ => ⟨S2x288x32, .f32⟩
  | .hbm, ⟨9, _⟩ => ⟨S32, .f32⟩
  | .hbm, ⟨10, _⟩ => ⟨S32x3, .f32⟩
  | .hbm, ⟨11, _⟩ => ⟨S3, .f32⟩
  | .hbm, ⟨12, _⟩ => ⟨S1x288x32, .f32⟩
  | .hbm, ⟨13, _⟩ => ⟨S288x32, .f32⟩
  | .hbm, ⟨14, _⟩ => ⟨S1x288x32, .f32⟩
  | .hbm, ⟨15, _⟩ => ⟨S288x32, .f32⟩
  | .hbm, ⟨16, _⟩ => ⟨S288x32, .f32⟩
  | .hbm, ⟨17, _⟩ => ⟨S1x288x32, .f32⟩
  | .hbm, ⟨18, _⟩ => ⟨S288x32, .f32⟩
  | .hbm, ⟨19, _⟩ => ⟨S1x288x32, .f32⟩
  | .hbm, ⟨20, _⟩ => ⟨S288x32, .f32⟩
  | .hbm, ⟨21, _⟩ => ⟨S288x32, .f32⟩
  | .hbm, ⟨22, _⟩ => ⟨S1x288x32, .f32⟩
  | .hbm, ⟨23, _⟩ => ⟨S288x32, .f32⟩
  | .hbm, ⟨24, _⟩ => ⟨S1x288x32, .f32⟩
  | .hbm, ⟨25, _⟩ => ⟨S288x32, .f32⟩
  | .hbm, ⟨26, _⟩ => ⟨S288x32, .f32⟩
  | .hbm, ⟨27, _⟩ => ⟨S256x32, .f32⟩
  | .hbm, ⟨28, _⟩ => ⟨S32x32, .f32⟩
  | .hbm, ⟨29, _⟩ => ⟨S256x32, .f32⟩
  | .hbm, ⟨30, _⟩ => ⟨S32x32, .f32⟩
  | .hbm, ⟨31, _⟩ => ⟨S256x32, .f32⟩
  | .hbm, ⟨32, _⟩ => ⟨S32x32, .f32⟩
  | .hbm, ⟨33, _⟩ => ⟨S256x96, .f32⟩
  | .hbm, ⟨34, _⟩ => ⟨S256x96, .bf16⟩
  | .hbm, ⟨35, _⟩ => ⟨S32x64, .f32⟩
  | .hbm, ⟨36, _⟩ => ⟨S32x64, .bf16⟩
  | .hbm, ⟨37, _⟩ => ⟨S32x32, .bf16⟩
  | .hbm, ⟨38, _⟩ => ⟨S32x3, .bf16⟩
  | .hbm, ⟨39, _⟩ => ⟨S64, .f32⟩
  | .hbm, ⟨40, _⟩ => ⟨S1x64, .f32⟩
  | .hbm, ⟨41, _⟩ => ⟨S1x32, .f32⟩
  | .hbm, ⟨42, _⟩ => ⟨S1x3, .f32⟩
  | .hbm, ⟨43, _⟩ => ⟨S300000x32, .f32⟩
  | .hbm, ⟨44, _⟩ => ⟨S300000x3, .f32⟩
  | .local _ .vmem, ⟨0, _⟩ => ⟨S4000x256, .f32⟩
  | .local _ .vmem, ⟨1, _⟩ => ⟨S4000x256, .f32⟩
  | .local _ .vmem, ⟨2, _⟩ => ⟨S4000x32, .f32⟩
  | .local _ .vmem, ⟨3, _⟩ => ⟨S4000x32, .f32⟩
  | .local _ .vmem, ⟨4, _⟩ => ⟨S256x96, .bf16⟩
  | .local _ .vmem, ⟨5, _⟩ => ⟨S32x64, .bf16⟩
  | .local _ .vmem, ⟨6, _⟩ => ⟨S1x64, .f32⟩
  | .local _ .vmem, ⟨7, _⟩ => ⟨S32x32, .bf16⟩
  | .local _ .vmem, ⟨8, _⟩ => ⟨S1x32, .f32⟩
  | .local _ .vmem, ⟨9, _⟩ => ⟨S32x3, .bf16⟩
  | .local _ .vmem, ⟨10, _⟩ => ⟨S1x3, .f32⟩
  | .local _ .vmem, ⟨11, _⟩ => ⟨S4000x32, .f32⟩
  | .local _ .vmem, ⟨12, _⟩ => ⟨S4000x32, .f32⟩
  | .local _ .vmem, ⟨13, _⟩ => ⟨S4000x3, .f32⟩
  | .local _ .vmem, ⟨14, _⟩ => ⟨S4000x3, .f32⟩
  | _, _ => ⟨S300000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31_0 : Ref sig .tc := ⟨.hbm, 43, rfl⟩
abbrev main_v31_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![75], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x96 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x32 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x3 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4000x3 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2x288x32_S1x288x32_0_0_0 : S2x288x32.Slices ![0, 0, 0] S1x288x32
  shapeCasts_S1x288x32_S288x32 : S1x288x32.ShapeCasts S288x32
  slices_S2x288x32_S1x288x32_1_0_0 : S2x288x32.Slices ![1, 0, 0] S1x288x32
  slices_S288x32_S256x32_0_0 : S288x32.Slices ![0, 0] S256x32
  slices_S288x32_S32x32_256_0 : S288x32.Slices ![256, 0] S32x32
  concatenates_S256x32_S256x32_S256x32_S256x96_d1 : Shape.Concatenates [S256x32, S256x32, S256x32] S256x96 1
  bitsLt_bf16_f32 : FTy.bits .bf16 < FTy.bits .f32
  concatenates_S32x32_S32x32_S32x64_d1 : Shape.Concatenates [S32x32, S32x32] S32x64 1
  concatenates_S32_S32_S64_d0 : Shape.Concatenates [S32, S32] S64 0
  shapeCasts_S64_S1x64 : S64.ShapeCasts S1x64
  shapeCasts_S32_S1x32 : S32.ShapeCasts S1x32
  shapeCasts_S3_S1x3 : S3.ShapeCasts S1x3
  inb_S4000x256_S4000x256_0_0 : ∀ a, (![0, 0] : Fin 2 → Nat) a + S4000x256.size a ≤ S4000x256.size a
  h_S4000x256 : 0 < S4000x256.numel
  inb_S4000x32_S4000x32_0_0 : ∀ a, (![0, 0] : Fin 2 → Nat) a + S4000x32.size a ≤ S4000x32.size a
  h_S4000x32 : 0 < S4000x32.numel
  inb_S256x96_S256x96_0_0 : ∀ a, (![0, 0] : Fin 2 → Nat) a + S256x96.size a ≤ S256x96.size a
  h_S256x96 : 0 < S256x96.numel
  shapeCasts_S256x96_S256x96 : S256x96.ShapeCasts S256x96
  inb_S32x64_S32x64_0_0 : ∀ a, (![0, 0] : Fin 2 → Nat) a + S32x64.size a ≤ S32x64.size a
  h_S32x64 : 0 < S32x64.numel
  shapeCasts_S32x64_S32x64 : S32x64.ShapeCasts S32x64
  slices_S4000x96_o0_0_S4000x64 : S4000x96.Slices ![0, 0] S4000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  slices_S4000x64_o0_0_S4000x32 : S4000x64.Slices ![0, 0] S4000x32
  slices_S4000x64_o0_32_S4000x32 : S4000x64.Slices ![0, 32] S4000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  slices_S4000x96_o0_64_S4000x32 : S4000x96.Slices ![0, 64] S4000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S32x3_S32x3_0_0 : ∀ a, (![0, 0] : Fin 2 → Nat) a + S32x3.size a ≤ S32x3.size a
  h_S32x3 : 0 < S32x3.numel
  shapeCasts_S32x3_S32x3 : S32x3.ShapeCasts S32x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S4000x3 : S1x3.Broadcasts S4000x3
  inb_S4000x3_S4000x3_0_0 : ∀ a, (![0, 0] : Fin 2 → Nat) a + S4000x3.size a ≤ S4000x3.size a
  h_S4000x3 : 0 < S4000x3.numel
  dot_S4000x256_S256x96_S4000x96_1_0_0_1_n_n_wf : DotDims.WF S4000x256 S256x96 S4000x96 [1] [0] [0] [1] [] []
  dot_S4000x32_S32x64_S4000x64_1_0_0_1_n_n_wf : DotDims.WF S4000x32 S32x64 S4000x64 [1] [0] [0] [1] [] []
  dot_S4000x32_S32x32_S4000x32_1_0_0_1_n_n_wf : DotDims.WF S4000x32 S32x32 S4000x32 [1] [0] [0] [1] [] []
  dot_S4000x32_S32x3_S4000x3_1_0_0_1_n_n_wf : DotDims.WF S4000x32 S32x3 S4000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S300000x256.size a
  hwx0_0 : ∀ i : grid0.Coords, EltTy.bits .f32 = 32 ∨ (Rect.block (s := S300000x256) S4000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x32.size a ≤ S300000x32.size a
  hwx0_1 : ∀ i : grid0.Coords, EltTy.bits .f32 = 32 ∨ (Rect.block (s := S300000x32) S4000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x96.size a ≤ S256x96.size a
  hwx0_2 : ∀ i : grid0.Coords, EltTy.bits .bf16 = 32 ∨ (Rect.block (s := S256x96) S256x96.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .bf16 = 32 ∨ (Rect.block (s := S32x64) S32x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x32.size a ≤ S32x32.size a
  hwx0_5 : ∀ i : grid0.Coords, EltTy.bits .bf16 = 32 ∨ (Rect.block (s := S32x32) S32x32.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x3.size a ≤ S32x3.size a
  hwx0_7 : ∀ i : grid0.Coords, EltTy.bits .bf16 = 32 ∨ (Rect.block (s := S32x3) S32x3.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x3.size a ≤ S1x3.size a
  hwx0_8 : ∀ i : grid0.Coords, EltTy.bits .f32 = 32 ∨ (Rect.block (s := S1x3) S1x3.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x32.size a ≤ S300000x32.size a
  hwx0_9 : ∀ i : grid0.Coords, EltTy.bits .f32 = 32 ∨ (Rect.block (s := S300000x32) S4000x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S4000x3.size a ≤ S300000x3.size a
  hwx0_10 : ∀ i : grid0.Coords, EltTy.bits .f32 = 32 ∨ (Rect.block (s := S300000x3) S4000x3.size (cc0_transform_10 i) (hinb0_10 i)).WholeWords (EltTy.packing .f32)

variable [Facts₀]

def dot_S4000x256_S256x96_S4000x96_1_0_0_1_n_n : DotDims S4000x256 S256x96 S4000x96 where
  lhsContracting := [1]
  rhsContracting := [0]
  lhsNonContracting := [0]
  rhsNonContracting := [1]
  lhsBatch := []
  rhsBatch := []
  wf := dot_S4000x256_S256x96_S4000x96_1_0_0_1_n_n_wf
def dot_S4000x32_S32x64_S4000x64_1_0_0_1_n_n : DotDims S4000x32 S32x64 S4000x64 where
  lhsContracting := [1]
  rhsContracting := [0]
  lhsNonContracting := [0]
  rhsNonContracting := [1]
  lhsBatch := []
  rhsBatch := []
  wf := dot_S4000x32_S32x64_S4000x64_1_0_0_1_n_n_wf
def dot_S4000x32_S32x32_S4000x32_1_0_0_1_n_n : DotDims S4000x32 S32x32 S4000x32 where
  lhsContracting := [1]
  rhsContracting := [0]
  lhsNonContracting := [0]
  rhsNonContracting := [1]
  lhsBatch := []
  rhsBatch := []
  wf := dot_S4000x32_S32x32_S4000x32_1_0_0_1_n_n_wf
def dot_S4000x32_S32x3_S4000x3_1_0_0_1_n_n : DotDims S4000x32 S32x3 S4000x3 where
  lhsContracting := [1]
  rhsContracting := [0]
  lhsNonContracting := [0]
  rhsNonContracting := [1]
  lhsBatch := []
  rhsBatch := []
  wf := dot_S4000x32_S32x3_S4000x3_1_0_0_1_n_n_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S256x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v28) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S32x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S32x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v30) S1x3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v31_0) S4000x32.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v31_1) S4000x3.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S300000x256 : Shape := ⟨2, ![300000, 256]⟩
abbrev S2x4800000 : Shape := ⟨2, ![2, 4800000]⟩
abbrev S4800000 : Shape := ⟨1, ![4800000]⟩
abbrev S300000x32 : Shape := ⟨2, ![300000, 32]⟩
abbrev S2x288x32 : Shape := ⟨3, ![2, 288, 32]⟩
abbrev S32 : Shape := ⟨1, ![32]⟩
abbrev S32x3 : Shape := ⟨2, ![32, 3]⟩
abbrev S3 : Shape := ⟨1, ![3]⟩
abbrev S300000x288 : Shape := ⟨2, ![300000, 288]⟩
abbrev S1x288x32 : Shape := ⟨3, ![1, 288, 32]⟩
abbrev S288x32 : Shape := ⟨2, ![288, 32]⟩
abbrev S1x32 : Shape := ⟨2, ![1, 32]⟩
abbrev S_ : Shape := ⟨0, ![]⟩
abbrev S300000x3 : Shape := ⟨2, ![300000, 3]⟩
abbrev S1x3 : Shape := ⟨2, ![1, 3]⟩

abbrev nBuf : Space → Nat
  | .hbm => 72
  | .vmem => 0
  | .smem => 0
  | _ => 0

abbrev bufTy : (tb : Table) → Fin (tcTables nBuf tb) → BufTy
  | .hbm, ⟨0, _⟩ => ⟨S300000x256, .f32⟩
  | .hbm, ⟨1, _⟩ => ⟨S2x4800000, .i32⟩
  | .hbm, ⟨2, _⟩ => ⟨S4800000, .f32⟩
  | .hbm, ⟨3, _⟩ => ⟨S300000x32, .f32⟩
  | .hbm, ⟨4, _⟩ => ⟨S2x288x32, .f32⟩
  | .hbm, ⟨5, _⟩ => ⟨S32, .f32⟩
  | .hbm, ⟨6, _⟩ => ⟨S2x288x32, .f32⟩
  | .hbm, ⟨7, _⟩ => ⟨S32, .f32⟩
  | .hbm, ⟨8, _⟩ => ⟨S2x288x32, .f32⟩
  | .hbm, ⟨9, _⟩ => ⟨S32, .f32⟩
  | .hbm, ⟨10, _⟩ => ⟨S32x3, .f32⟩
  | .hbm, ⟨11, _⟩ => ⟨S3, .f32⟩
  | .hbm, ⟨12, _⟩ => ⟨S300000x288, .f32⟩
  | .hbm, ⟨13, _⟩ => ⟨S1x288x32, .f32⟩
  | .hbm, ⟨14, _⟩ => ⟨S288x32, .f32⟩
  | .hbm, ⟨15, _⟩ => ⟨S1x288x32, .f32⟩
  | .hbm, ⟨16, _⟩ => ⟨S288x32, .f32⟩
  | .hbm, ⟨17, _⟩ => ⟨S288x32, .f32⟩
  | .hbm, ⟨18, _⟩ => ⟨S300000x32, .f32⟩
  | .hbm, ⟨19, _⟩ => ⟨S1x32, .f32⟩
  | .hbm, ⟨20, _⟩ => ⟨S300000x32, .f32⟩
  | .hbm, ⟨21, _⟩ => ⟨S300000x32, .f32⟩
  | .hbm, ⟨22, _⟩ => ⟨S300000x32, .f32⟩
  | .hbm, ⟨23, _⟩ => ⟨S300000x32, .f32⟩
  | .hbm, ⟨24, _⟩ => ⟨S_, .f32⟩
  | .hbm, ⟨25, _⟩ => ⟨S300000x32, .f32⟩
  | .hbm, ⟨26, _⟩ => ⟨S300000x32, .f32⟩
  | .hbm, ⟨27, _⟩ => ⟨S_, .f32⟩
  | .hbm, ⟨28, _⟩ => ⟨S300000x32, .f32⟩
  | .hbm, ⟨29, _⟩ => ⟨S300000x32, .f32⟩
  | .hbm, ⟨30, _⟩ => ⟨S1x288x32, .f32⟩
  | .hbm, ⟨31, _⟩ => ⟨S288x32, .f32⟩
  | .hbm, ⟨32, _⟩ => ⟨S1x288x32, .f32⟩
  | .hbm, ⟨33, _⟩ => ⟨S288x32, .f32⟩
  | .hbm, ⟨34, _⟩ => ⟨S288x32, .f32⟩
  | .hbm, ⟨35, _⟩ => ⟨S300000x32, .f32⟩
  | .hbm, ⟨36, _⟩ => ⟨S1x32, .f32⟩
  | .hbm, ⟨37, _⟩ => ⟨S300000x32, .f32⟩
  | .hbm, ⟨38, _⟩ => ⟨S300000x32, .f32⟩
  | .hbm, ⟨39, _⟩ => ⟨S300000x32, .f32⟩
  | .hbm, ⟨40, _⟩ => ⟨S300000x32, .f32⟩
  | .hbm, ⟨41, _⟩ => ⟨S_, .f32⟩
  | .hbm, ⟨42, _⟩ => ⟨S300000x32, .f32⟩
  | .hbm, ⟨43, _⟩ => ⟨S300000x32, .f32⟩
  | .hbm, ⟨44, _⟩ => ⟨S_, .f32⟩
  | .hbm, ⟨45, _⟩ => ⟨S300000x32, .f32⟩
  | .hbm, ⟨46, _⟩ => ⟨S300000x32, .f32⟩
  | .hbm, ⟨47, _⟩ => ⟨S300000x32, .f32⟩
  | .hbm, ⟨48, _⟩ => ⟨S300000x288, .f32⟩
  | .hbm, ⟨49, _⟩ => ⟨S1x288x32, .f32⟩
  | .hbm, ⟨50, _⟩ => ⟨S288x32, .f32⟩
  | .hbm, ⟨51, _⟩ => ⟨S1x288x32, .f32⟩
  | .hbm, ⟨52, _⟩ => ⟨S288x32, .f32⟩
  | .hbm, ⟨53, _⟩ => ⟨S288x32, .f32⟩
  | .hbm, ⟨54, _⟩ => ⟨S300000x32, .f32⟩
  | .hbm, ⟨55, _⟩ => ⟨S1x32, .f32⟩
  | .hbm, ⟨56, _⟩ => ⟨S300000x32, .f32⟩
  | .hbm, ⟨57, _⟩ => ⟨S300000x32, .f32⟩
  | .hbm, ⟨58, _⟩ => ⟨S300000x32, .f32⟩
  | .hbm, ⟨59, _⟩ => ⟨S300000x32, .f32⟩
  | .hbm, ⟨60, _⟩ => ⟨S_, .f32⟩
  | .hbm, ⟨61, _⟩ => ⟨S300000x32, .f32⟩
  | .hbm, ⟨62, _⟩ => ⟨S300000x32, .f32⟩
  | .hbm, ⟨63, _⟩ => ⟨S300000x32, .f32⟩
  | .hbm, ⟨64, _⟩ => ⟨S300000x32, .f32⟩
  | .hbm, ⟨65, _⟩ => ⟨S_, .f32⟩
  | .hbm, ⟨66, _⟩ => ⟨S300000x32, .f32⟩
  | .hbm, ⟨67, _⟩ => ⟨S300000x32, .f32⟩
  | .hbm, ⟨68, _⟩ => ⟨S300000x3, .f32⟩
  | .hbm, ⟨69, _⟩ => ⟨S1x3, .f32⟩
  | .hbm, ⟨70, _⟩ => ⟨S300000x3, .f32⟩
  | .hbm, ⟨71, _⟩ => ⟨S300000x3, .f32⟩
  | _, _ => ⟨S300000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_1 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_3 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call0_cst : Ref sig .tc := ⟨.hbm, 65, rfl⟩
abbrev main_call0_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩

abbrev nD : Nat := 1
abbrev τ : Topo := Topo.v7x

variable {F : FTy → Type} [FloatOps F]

class Facts₀ : Prop where
  concatenates_S300000x256_S300000x32_S300000x288_d1 : Shape.Concatenates [S300000x256, S300000x32] S300000x288 1
  slices_S2x288x32_S1x288x32_0_0_0 : S2x288x32.Slices ![0, 0, 0] S1x288x32
  shapeCasts_S1x288x32_S288x32 : S1x288x32.ShapeCasts S288x32
  slices_S2x288x32_S1x288x32_1_0_0 : S2x288x32.Slices ![1, 0, 0] S1x288x32
  bcast_S32_S1x32_1 : S32.BroadcastsInDim S1x32 (![1] : Fin 1 → Fin S1x32.rank)
  bcast_S1x32_S300000x32_0_1 : S1x32.BroadcastsInDim S300000x32 (![0, 1] : Fin 2 → Fin S300000x32.rank)
  bcast_S_S300000x32 : S_.BroadcastsInDim S300000x32 (![] : Fin 0 → Fin S300000x32.rank)
  bcast_S3_S1x3_1 : S3.BroadcastsInDim S1x3 (![1] : Fin 1 → Fin S1x3.rank)
  bcast_S1x3_S300000x3_0_1 : S1x3.BroadcastsInDim S300000x3 (![0, 1] : Fin 2 → Fin S300000x3.rank)
  dot_S300000x288_S288x32_S300000x32_1_0_0_1_n_n_wf : DotDims.WF S300000x288 S288x32 S300000x32 [1] [0] [0] [1] [] []
  dot_S300000x32_S32x3_S300000x3_1_0_0_1_n_n_wf : DotDims.WF S300000x32 S32x3 S300000x3 [1] [0] [0] [1] [] []

variable [Facts₀]

def dot_S300000x288_S288x32_S300000x32_1_0_0_1_n_n : DotDims S300000x288 S288x32 S300000x32 where
  lhsContracting := [1]
  rhsContracting := [0]
  lhsNonContracting := [0]
  rhsNonContracting := [1]
  lhsBatch := []
  rhsBatch := []
  wf := dot_S300000x288_S288x32_S300000x32_1_0_0_1_n_n_wf
def dot_S300000x32_S32x3_S300000x3_1_0_0_1_n_n : DotDims S300000x32 S32x3 S300000x3 where
  lhsContracting := [1]
  rhsContracting := [0]
  lhsNonContracting := [0]
  rhsNonContracting := [1]
  lhsBatch := []
  rhsBatch := []
  wf := dot_S300000x32_S32x3_S300000x3_1_0_0_1_n_n_wf

class Facts : Prop extends Facts₀ where

variable [Facts]
-- ==== Proof.KEntry.lean ====
/-
  The program up to its one kernel launch: what each buffer of the core holds when the launch begins (the launch
  contents carried through the lines that prepare the fused weights), that none of those lines writes an argument,
  and, for each window of the launch, the block of its array a grid point works on.
-/
import proofs.«167448_j50465865728448_2_alg».proof.Proof.Gen.Kernel.Launch
import proofs.«167448_j50465865728448_2_alg».proof.Proof.Gen.Kernel.Skeleton
import proofs.«167448_j50465865728448_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffers when the launch begins: the launch contents after the lines before it. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is those lines followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No line before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

end Cert.Kernel.Hand

end
-- ==== Proof.KBody.lean ====
/-
  One call of the kernel body, on whole buffers: with the nine input buffers at given contents and the two output
  buffers at anything, it ends with the inputs as they were, the new hidden state in the first output buffer and
  the read-out of its positive part in the second. Each output is stored once, through the whole buffer.
-/
import proofs.«167448_j50465865728448_2_alg».proof.Proof.KEntry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev r_S4000x256 : Rect S4000x256 := Rect.unit (s := S4000x256) ![0, 0] S4000x256.size inb_S4000x256_S4000x256_0_0
abbrev r_S4000x32 : Rect S4000x32 := Rect.unit (s := S4000x32) ![0, 0] S4000x32.size inb_S4000x32_S4000x32_0_0
abbrev r_S256x96 : Rect S256x96 := Rect.unit (s := S256x96) ![0, 0] S256x96.size inb_S256x96_S256x96_0_0
abbrev r_S32x64 : Rect S32x64 := Rect.unit (s := S32x64) ![0, 0] S32x64.size inb_S32x64_S32x64_0_0
abbrev r_S1x64 : Rect S1x64 := Rect.unit (s := S1x64) ![0, 0] S1x64.size inb_S1x64_S1x64_0_0
abbrev r_S32x32 : Rect S32x32 := Rect.unit (s := S32x32) ![0, 0] S32x32.size inb_S32x32_S32x32_0_0
abbrev r_S1x32 : Rect S1x32 := Rect.unit (s := S1x32) ![0, 0] S1x32.size inb_S1x32_S1x32_0_0
abbrev r_S32x3 : Rect S32x3 := Rect.unit (s := S32x3) ![0, 0] S32x3.size inb_S32x3_S32x3_0_0
abbrev r_S1x3 : Rect S1x3 := Rect.unit (s := S1x3) ![0, 0] S1x3.size inb_S1x3_S1x3_0_0
abbrev r_S4000x3 : Rect S4000x3 := Rect.unit (s := S4000x3) ![0, 0] S4000x3.size inb_S4000x3_S4000x3_0_0

/-- The new hidden state's block, from the seven input blocks it depends on. -/
def hn (x0 : Vec F S4000x256 .f32) (x1 : Vec F S4000x32 .f32) (x2 : Vec F S256x96 .bf16) (x3 : Vec F S32x64 .bf16) (x4 : Vec F S1x64 .f32) (x5 : Vec F S32x32 .bf16) (x6 : Vec F S1x32 .f32) : FVec F S4000x32 .f32 :=
  k0_pay2 (View.ld x0 r_S4000x256) (View.ld x1 r_S4000x32) (View.ld x2 r_S256x96) (View.ld x3 r_S32x64) (View.ld x4 r_S1x64) (View.ld x5 r_S32x32) (View.ld x6 r_S1x32)

/-- The first output buffer after the body. -/
def out0_9 (x0 : Vec F S4000x256 .f32) (x1 : Vec F S4000x32 .f32) (x2 : Vec F S256x96 .bf16) (x3 : Vec F S32x64 .bf16) (x4 : Vec F S1x64 .f32) (x5 : Vec F S32x32 .bf16) (x6 : Vec F S1x32 .f32) : Vec F S4000x32 .f32 :=
  View.canon [⟨r_S4000x32, hn x0 x1 x2 x3 x4 x5 x6⟩]

/-- The second output buffer after the body. -/
def out0_10 (x0 : Vec F S4000x256 .f32) (x1 : Vec F S4000x32 .f32) (x2 : Vec F S256x96 .bf16) (x3 : Vec F S32x64 .bf16) (x4 : Vec F S1x64 .f32) (x5 : Vec F S32x32 .bf16) (x6 : Vec F S1x32 .f32) (x7 : Vec F S32x3 .bf16) (x8 : Vec F S1x3 .f32) : Vec F S4000x3 .f32 :=
  View.canon [⟨r_S4000x3, k0_pay1 (hn x0 x1 x2 x3 x4 x5 x6) (View.ld x7 r_S32x3) (View.ld x8 r_S1x3)⟩]

theorem cover0_9 (p0 : Vec F S4000x32 .f32) (y : S4000x32.Idx) :
    ∃ pc ∈ ([⟨r_S4000x32, p0⟩] : List (View.Piece (Elt F) S4000x32 .f32)), y ∈ pc.1.set :=
  View.cover_of_tiled [⟨r_S4000x32, p0⟩] S4000x32.size (by rfl) y

theorem cover0_10 (p0 : Vec F S4000x3 .f32) (y : S4000x3.Idx) :
    ∃ pc ∈ ([⟨r_S4000x3, p0⟩] : List (View.Piece (Elt F) S4000x3 .f32)), y ∈ pc.1.set :=
  View.cover_of_tiled [⟨r_S4000x3, p0⟩] S4000x3.size (by rfl) y

set_option maxHeartbeats 4000000 in
/-- The body's triple. -/
theorem sound_kernel (c : Dev nD) (E : Set ℕ) (i : grid0.Coords)
    (arg1 : Memref sig .tc .vmem S4000x256 .f32) (harg1 : arg1.IsWhole) (arg2 : Memref sig .tc .vmem S4000x32 .f32) (harg2 : arg2.IsWhole) (arg3 : Memref sig .tc .vmem S256x96 .bf16) (harg3 : arg3.IsWhole) (arg4 : Memref sig .tc .vmem S32x64 .bf16) (harg4 : arg4.IsWhole) (arg5 : Memref sig .tc .vmem S1x64 .f32) (harg5 : arg5.IsWhole) (arg6 : Memref sig .tc .vmem S32x32 .bf16) (harg6 : arg6.IsWhole) (arg7 : Memref sig .tc .vmem S1x32 .f32) (harg7 : arg7.IsWhole) (arg8 : Memref sig .tc .vmem S32x3 .bf16) (harg8 : arg8.IsWhole) (arg9 : Memref sig .tc .vmem S1x3 .f32) (harg9 : arg9.IsWhole) (arg10 : Memref sig .tc .vmem S4000x32 .f32) (harg10 : arg10.IsWhole) (arg11 : Memref sig .tc .vmem S4000x3 .f32) (harg11 : arg11.IsWhole)
    (x0 : Vec F S4000x256 .f32) (x1 : Vec F S4000x32 .f32) (x2 : Vec F S256x96 .bf16) (x3 : Vec F S32x64 .bf16) (x4 : Vec F S1x64 .f32) (x5 : Vec F S32x32 .bf16) (x6 : Vec F S1x32 .f32) (x7 : Vec F S32x3 .bf16) (x8 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6) ∗ owns (c : Thread nD τ) arg11 fullShare (out0_10 x0 x1 x2 x3 x4 x5 x6 x7 x8)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_10 _)

end Cert.Kernel.Hand

end
-- ==== Proof.KFrame.lean ====
/-
  The launch as a whole: at every grid point the staging buffers of the nine inputs hold their blocks, the body
  turns them into the two output blocks, and the pipeline writes those back. Hence the program runs to its end,
  faults nowhere, leaves its arguments as launched, and every array the launch touches ends at the contents
  computed from the per-point blocks.
-/
import proofs.«167448_j50465865728448_2_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's data on core `c`: the arrays as the launch finds them; after the body at point `t` each input
    buffer at its block and each output buffer at the body's result of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t)
    | ⟨10, _⟩ => out0_10 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, and in every final state each array of the launch holds what
    the per-point blocks make it and every other unscoped buffer what it held when the launch began. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as launched; the two results end at the arrays assembled from the per-point output blocks. -/
theorem run_named : θ_run defs (onTc (τ := τ) (main (F := F))) ⟨m, fun _ => 0, ρ⟩ (fun r => ∀ c : Dev nD,
      r.2.mem ((c.tc : Thread nD τ).loc main_v31_1) = (dats m 0 c).arrAt 10 cfg0.N
      ∧ r.2.mem ((c.tc : Thread nD τ).loc main_v31_0) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1 10, (h c).1 9,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (run_main m ρ)

/-- The frame: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2.2) (run_named m ρ)

end Cert.Kernel.Hand

end
-- ==== Proof.KIEntry.lean ====
/-
  The program up to its one kernel launch: what each buffer of the core holds when the launch begins (the launch
  contents carried through the lines that prepare the fused weights), that none of those lines writes an argument,
  and, for each window of the launch, the block of its array a grid point works on.
-/
import proofs.«167448_j50465865728448_2_alg».proof.Proof.Gen.KernelIdeal.Launch
import proofs.«167448_j50465865728448_2_alg».proof.Proof.Gen.KernelIdeal.Skeleton
import proofs.«167448_j50465865728448_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The core's buffers when the launch begins: the launch contents after the lines before it. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is those lines followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No line before the launch writes argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 4. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 5. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 6. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 7. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 8. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 9. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 10. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
/-- No line before the launch writes argument 11. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Window `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, fetched there or not. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, fetched there or not. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, fetched there or not. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, fetched there or not. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Hand

end
-- ==== Proof.KIBody.lean ====
/-
  One call of the kernel body, on whole buffers: with the nine input buffers at given contents and the two output
  buffers at anything, it ends with the inputs as they were, the new hidden state in the first output buffer and
  the read-out of its positive part in the second. Each output is stored once, through the whole buffer.
-/
import proofs.«167448_j50465865728448_2_alg».proof.Proof.KIEntry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev r_S4000x256 : Rect S4000x256 := Rect.unit (s := S4000x256) ![0, 0] S4000x256.size inb_S4000x256_S4000x256_0_0
abbrev r_S4000x32 : Rect S4000x32 := Rect.unit (s := S4000x32) ![0, 0] S4000x32.size inb_S4000x32_S4000x32_0_0
abbrev r_S256x96 : Rect S256x96 := Rect.unit (s := S256x96) ![0, 0] S256x96.size inb_S256x96_S256x96_0_0
abbrev r_S32x64 : Rect S32x64 := Rect.unit (s := S32x64) ![0, 0] S32x64.size inb_S32x64_S32x64_0_0
abbrev r_S1x64 : Rect S1x64 := Rect.unit (s := S1x64) ![0, 0] S1x64.size inb_S1x64_S1x64_0_0
abbrev r_S32x32 : Rect S32x32 := Rect.unit (s := S32x32) ![0, 0] S32x32.size inb_S32x32_S32x32_0_0
abbrev r_S1x32 : Rect S1x32 := Rect.unit (s := S1x32) ![0, 0] S1x32.size inb_S1x32_S1x32_0_0
abbrev r_S32x3 : Rect S32x3 := Rect.unit (s := S32x3) ![0, 0] S32x3.size inb_S32x3_S32x3_0_0
abbrev r_S1x3 : Rect S1x3 := Rect.unit (s := S1x3) ![0, 0] S1x3.size inb_S1x3_S1x3_0_0
abbrev r_S4000x3 : Rect S4000x3 := Rect.unit (s := S4000x3) ![0, 0] S4000x3.size inb_S4000x3_S4000x3_0_0

/-- The new hidden state's block, from the seven input blocks it depends on. -/
def hn (x0 : Vec F S4000x256 .f32) (x1 : Vec F S4000x32 .f32) (x2 : Vec F S256x96 .bf16) (x3 : Vec F S32x64 .bf16) (x4 : Vec F S1x64 .f32) (x5 : Vec F S32x32 .bf16) (x6 : Vec F S1x32 .f32) : FVec F S4000x32 .f32 :=
  k0_pay2 (View.ld x0 r_S4000x256) (View.ld x1 r_S4000x32) (View.ld x2 r_S256x96) (View.ld x3 r_S32x64) (View.ld x4 r_S1x64) (View.ld x5 r_S32x32) (View.ld x6 r_S1x32)

/-- The first output buffer after the body. -/
def out0_9 (x0 : Vec F S4000x256 .f32) (x1 : Vec F S4000x32 .f32) (x2 : Vec F S256x96 .bf16) (x3 : Vec F S32x64 .bf16) (x4 : Vec F S1x64 .f32) (x5 : Vec F S32x32 .bf16) (x6 : Vec F S1x32 .f32) : Vec F S4000x32 .f32 :=
  View.canon [⟨r_S4000x32, hn x0 x1 x2 x3 x4 x5 x6⟩]

/-- The second output buffer after the body. -/
def out0_10 (x0 : Vec F S4000x256 .f32) (x1 : Vec F S4000x32 .f32) (x2 : Vec F S256x96 .bf16) (x3 : Vec F S32x64 .bf16) (x4 : Vec F S1x64 .f32) (x5 : Vec F S32x32 .bf16) (x6 : Vec F S1x32 .f32) (x7 : Vec F S32x3 .bf16) (x8 : Vec F S1x3 .f32) : Vec F S4000x3 .f32 :=
  View.canon [⟨r_S4000x3, k0_pay1 (hn x0 x1 x2 x3 x4 x5 x6) (View.ld x7 r_S32x3) (View.ld x8 r_S1x3)⟩]

theorem cover0_9 (p0 : Vec F S4000x32 .f32) (y : S4000x32.Idx) :
    ∃ pc ∈ ([⟨r_S4000x32, p0⟩] : List (View.Piece (Elt F) S4000x32 .f32)), y ∈ pc.1.set :=
  View.cover_of_tiled [⟨r_S4000x32, p0⟩] S4000x32.size (by rfl) y

theorem cover0_10 (p0 : Vec F S4000x3 .f32) (y : S4000x3.Idx) :
    ∃ pc ∈ ([⟨r_S4000x3, p0⟩] : List (View.Piece (Elt F) S4000x3 .f32)), y ∈ pc.1.set :=
  View.cover_of_tiled [⟨r_S4000x3, p0⟩] S4000x3.size (by rfl) y

set_option maxHeartbeats 4000000 in
/-- The body's triple. -/
theorem sound_kernel (c : Dev nD) (E : Set ℕ) (i : grid0.Coords)
    (arg1 : Memref sig .tc .vmem S4000x256 .f32) (harg1 : arg1.IsWhole) (arg2 : Memref sig .tc .vmem S4000x32 .f32) (harg2 : arg2.IsWhole) (arg3 : Memref sig .tc .vmem S256x96 .bf16) (harg3 : arg3.IsWhole) (arg4 : Memref sig .tc .vmem S32x64 .bf16) (harg4 : arg4.IsWhole) (arg5 : Memref sig .tc .vmem S1x64 .f32) (harg5 : arg5.IsWhole) (arg6 : Memref sig .tc .vmem S32x32 .bf16) (harg6 : arg6.IsWhole) (arg7 : Memref sig .tc .vmem S1x32 .f32) (harg7 : arg7.IsWhole) (arg8 : Memref sig .tc .vmem S32x3 .bf16) (harg8 : arg8.IsWhole) (arg9 : Memref sig .tc .vmem S1x3 .f32) (harg9 : arg9.IsWhole) (arg10 : Memref sig .tc .vmem S4000x32 .f32) (harg10 : arg10.IsWhole) (arg11 : Memref sig .tc .vmem S4000x3 .f32) (harg11 : arg11.IsWhole)
    (x0 : Vec F S4000x256 .f32) (x1 : Vec F S4000x32 .f32) (x2 : Vec F S256x96 .bf16) (x3 : Vec F S32x64 .bf16) (x4 : Vec F S1x64 .f32) (x5 : Vec F S32x32 .bf16) (x6 : Vec F S1x32 .f32) (x7 : Vec F S32x3 .bf16) (x8 : Vec F S1x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6) ∗ owns (c : Thread nD τ) arg11 fullShare (out0_10 x0 x1 x2 x3 x4 x5 x6 x7 x8)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11) K := by
  simp only [cc0__kernel_eq_skeleton]; unfold cc0__kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover0_9 _)
  iexists _; isplitr
  swap; · iexact H10
  ipureintro
  exact View.read_writes_eq_canon _ _ _ (cover0_10 _)

end Cert.KernelIdeal.Hand

end
-- ==== Proof.KIFrame.lean ====
/-
  The launch as a whole: at every grid point the staging buffers of the nine inputs hold their blocks, the body
  turns them into the two output blocks, and the pipeline writes those back. Hence the program runs to its end,
  faults nowhere, leaves its arguments as launched, and every array the launch touches ends at the contents
  computed from the per-point blocks.
-/
import proofs.«167448_j50465865728448_2_alg».proof.Proof.KIBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch's data on core `c`: the arrays as the launch finds them; after the body at point `t` each input
    buffer at its block and each output buffer at the body's result of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t)
    | ⟨10, _⟩ => out0_10 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem body_obligation (c : Dev nD) : BodyObligation (dats (F := F) m 0 c) (defs₀ (F := F)) Variants.none () Set.univ := fun t => by
  rw [bigSep_W0, bigSep_W0]
  exact sound_body m c t

set_option backward.isDefEq.respectTransparency.types false in
/-- Every weakly fair execution of the program terminates, and in every final state each array of the launch holds what
    the per-point blocks make it and every other unscoped buffer what it held when the launch began. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The arguments end as launched; the two results end at the arrays assembled from the per-point output blocks. -/
theorem run_named : θ_run defs (onTc (τ := τ) (main (F := F))) ⟨m, fun _ => 0, ρ⟩ (fun r => ∀ c : Dev nD,
      r.2.mem ((c.tc : Thread nD τ).loc main_v31_1) = (dats m 0 c).arrAt 10 cfg0.N
      ∧ r.2.mem ((c.tc : Thread nD τ).loc main_v31_0) = (dats m 0 c).arrAt 9 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1 10, (h c).1 9,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 1).trans (((dats m 0 c).arrAt_in 1 rfl _).trans ((A_eq m c 1).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c)⟩)
    (run_main m ρ)

/-- The frame: the program runs and its arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => (h c).2.2) (run_named m ρ)

end Cert.KernelIdeal.Hand

end
-- ==== Proof.LibGru.lean ====
/-
  One step of a gated recurrent unit on a single row, on the extended reals, and a linear read-out of its positive
  part. With input row `x` (width K), state row `h` (width H), three gates each with an input weight block, a state
  weight block and a bias:
    z   = logistic (x · Wzx + h · Wzh + bz)            the update gate
    r   = logistic (x · Wrx + h · Wrh + br)            the reset gate
    c   = tanh     (x · Whx + (r ∘ h) · Whh + bh)      the candidate
    h'  = z ∘ h + (1 − z) ∘ c
    out = max(h', 0) · Wl + bl.
  Each product is a finite sum over the extended reals; a gate's two partial sums are added before the bias. Nothing
  here needs an entry to be finite. A host program that lays `x` and `h` side by side and multiplies by the two
  weight blocks stacked computes the same gate: a sum over K + H consecutive columns is the sum over the first K plus
  the sum over the last H.
-/
import Idealize.ShloMosaic.PureOps.Ideal.Laws
import Idealize.ShloMosaic.Lib.IdealHost
import Idealize.ShloMosaic.Lib.ValueIdx

noncomputable section

namespace Cert.Gru

open Idealize.ShloMosaic Idealize.ShloMosaic.ValueIdx

/-- The value of the all-zero f32 word. -/
abbrev zero : EReal := Ideal.ofBits .f32 0x00000000#32

/-- A gate before its nonlinearity, at column `k`: the input row against column `k` of the input block, plus the
    state row against column `k` of the state block, plus the bias. -/
def gate {K H : Nat} (x : Fin K → EReal) (h : Fin H → EReal) (wx : Fin K → Fin H → EReal) (wh : Fin H → Fin H → EReal)
    (b : Fin H → EReal) (k : Fin H) : EReal :=
  ((∑ l : Fin K, x l * wx l k) + ∑ l : Fin H, h l * wh l k) + b k

/-- The three gates' weights. -/
@[ext] structure Weights (K H : Nat) where
  wzx : Fin K → Fin H → EReal
  wzh : Fin H → Fin H → EReal
  bz : Fin H → EReal
  wrx : Fin K → Fin H → EReal
  wrh : Fin H → Fin H → EReal
  br : Fin H → EReal
  whx : Fin K → Fin H → EReal
  whh : Fin H → Fin H → EReal
  bh : Fin H → EReal

/-- The new state of one row, at column `k`. -/
def hnRow {K H : Nat} (W : Weights K H) (x : Fin K → EReal) (h : Fin H → EReal) (k : Fin H) : EReal :=
  Ideal.logistic (gate x h W.wzx W.wzh W.bz k) * h k
    + (1 - Ideal.logistic (gate x h W.wzx W.wzh W.bz k))
      * Ideal.tanh (gate x (fun l => Ideal.logistic (gate x h W.wrx W.wrh W.br l) * h l) W.whx W.whh W.bh k)

/-- The read-out of one row's new state `hn`, at column `q`. -/
def outRow {H O : Nat} (wl : Fin H → Fin O → EReal) (bl : Fin O → EReal) (hn : Fin H → EReal) (q : Fin O) : EReal :=
  (∑ k : Fin H, max (hn k) zero * wl k q) + bl q

/-- A sum over `K + D` consecutive indices is the sum over the first `K` plus the sum over the last `D`. -/
theorem sum_split {K D KD : Nat} (hKD : K + D = KD) (f : Fin KD → EReal) :
    ∑ k : Fin KD, f k = (∑ l : Fin K, f ⟨l.val, by have := l.isLt; omega⟩)
      + ∑ l : Fin D, f ⟨K + l.val, by have := l.isLt; omega⟩ := by
  subst hKD
  exact Fin.sum_univ_add f

/-- A gate computed from the two rows laid side by side (`xh`, width `K + H`) against the two blocks stacked (`w`):
    one sum over `K + H` columns plus the bias. -/
theorem gate_of_joined {K H KH : Nat} (hKH : K + H = KH) (xh : Fin KH → EReal) (w : Fin KH → Fin H → EReal)
    (x : Fin K → EReal) (h : Fin H → EReal) (wx : Fin K → Fin H → EReal) (wh : Fin H → Fin H → EReal)
    (b : Fin H → EReal) (k : Fin H)
    (hx : ∀ l : Fin K, xh ⟨l.val, by have := l.isLt; omega⟩ = x l)
    (hh : ∀ l : Fin H, xh ⟨K + l.val, by have := l.isLt; omega⟩ = h l)
    (hwx : ∀ l : Fin K, w ⟨l.val, by have := l.isLt; omega⟩ k = wx l k)
    (hwh : ∀ l : Fin H, w ⟨K + l.val, by have := l.isLt; omega⟩ k = wh l k) :
    (∑ l : Fin KH, xh l * w l k) + b k = gate x h wx wh b k := by
  unfold gate
  rw [sum_split hKH]
  refine congrArg (· + b k) (congrArg₂ (· + ·) (Finset.sum_congr rfl fun l _ => ?_) (Finset.sum_congr rfl fun l _ => ?_))
  · rw [hx l, hwx l]
  · rw [hh l, hwh l]

/-- The weights as the arguments give them: each gate's weight is the sum of two [K + H, H] slabs of one [2, K + H, H]
    array; its first `K` rows multiply the input row and its last `H` rows the state row. -/
def wsum {KH H : Nat} (W : (⟨3, ![2, KH, H]⟩ : Shape).Idx → EReal) (l : Fin KH) (k : Fin H) : EReal :=
  W (ix3 (0 : Fin 2) l k) + W (ix3 (1 : Fin 2) l k)

def weightsOf {K H KH : Nat} (hKH : K + H = KH) (Wz Wr Wh : (⟨3, ![2, KH, H]⟩ : Shape).Idx → EReal)
    (bz br bh : (⟨1, ![H]⟩ : Shape).Idx → EReal) : Weights K H where
  wzx l k := wsum Wz ⟨l.val, by have := l.isLt; omega⟩ k
  wzh l k := wsum Wz ⟨K + l.val, by have := l.isLt; omega⟩ k
  bz k := bz (ix1 k)
  wrx l k := wsum Wr ⟨l.val, by have := l.isLt; omega⟩ k
  wrh l k := wsum Wr ⟨K + l.val, by have := l.isLt; omega⟩ k
  br k := br (ix1 k)
  whx l k := wsum Wh ⟨l.val, by have := l.isLt; omega⟩ k
  whh l k := wsum Wh ⟨K + l.val, by have := l.isLt; omega⟩ k
  bh k := bh (ix1 k)

/-- The new state of every row: entry `(p, k)` is row `p`'s new state at column `k`. -/
def HnG {n K H : Nat} (W : Weights K H) (x : (⟨2, ![n, K]⟩ : Shape).Idx → EReal) (h : (⟨2, ![n, H]⟩ : Shape).Idx → EReal) :
    (⟨2, ![n, H]⟩ : Shape).Idx → EReal :=
  fun i => hnRow W (fun l => x (ix2 (i 0) l)) (fun l => h (ix2 (i 0) l)) (i 1)

/-- The read-out of every row. -/
def OutG {n K H O : Nat} (W : Weights K H) (x : (⟨2, ![n, K]⟩ : Shape).Idx → EReal) (h : (⟨2, ![n, H]⟩ : Shape).Idx → EReal)
    (wl : (⟨2, ![H, O]⟩ : Shape).Idx → EReal) (bl : (⟨1, ![O]⟩ : Shape).Idx → EReal) :
    (⟨2, ![n, O]⟩ : Shape).Idx → EReal :=
  fun i => outRow (fun k q => wl (ix2 k q)) (fun q => bl (ix1 q)) (fun k => HnG W x h (ix2 (i 0) k)) (i 1)

end Cert.Gru

end
-- ==== Proof.LibMatmul.lean ====
/-
  A rank-2 matrix product read at an index, at the exact extended reals: when the dimension numbers contract the
  left operand's column axis with the right operand's row axis and keep the other two axes in order, the product
  accumulated into zeros is, at row `p` and column `q`, the sum over `k` of `lhs (p, k) · rhs (k, q)` — a sum over
  the contracted extent itself, not over the contraction's own index type.
-/
import Idealize.ShloMosaic.PureOps.Ideal.Laws
import Idealize.ShloMosaic.Lib.ValueIdx

noncomputable section

namespace Cert.LibMatmul

open Idealize.ShloMosaic Idealize.ShloMosaic.ValueIdx

/-- A product `[a, K] × [K, b] → [a, b]` into a zero accumulator, at an output index `j`: the four coordinate facts
    say which operand entries the dimension numbers pair at the contraction index (the left one at `(j 0, k)`, the
    right one at `(k, j 1)`); the contraction has one axis, of extent `K`, and the sum is re-indexed along it. -/
theorem matmul_zero_ix2 {a K b : Nat} {φ₁ φ₂ : FTy}
    (d : DotDims ⟨2, ![a, K]⟩ ⟨2, ![K, b]⟩ ⟨2, ![a, b]⟩) (prec : Option ContractPrecision)
    (hr : d.contr.rank = 1) (hs : d.contr.size ⟨0, by omega⟩ = K)
    (hl0 : ∀ j q, (d.lhsIdx j q 0).val = (j 0).val)
    (hl1 : ∀ j q, (d.lhsIdx j q 1).val = (q ⟨0, by omega⟩).val)
    (hr0 : ∀ j q, (d.rhsIdx j q 0).val = (q ⟨0, by omega⟩).val)
    (hr1 : ∀ j q, (d.rhsIdx j q 1).val = (j 1).val)
    (lhs : FVec Ideal ⟨2, ![a, K]⟩ φ₁) (rhs : FVec Ideal ⟨2, ![K, b]⟩ φ₂) (j : (⟨2, ![a, b]⟩ : Shape).Idx) :
    FloatOps.matmul d prec lhs rhs (constant ⟨2, ![a, b]⟩ .f32 0x00000000#32) j
      = ∑ k : Fin K, lhs (ix2 (j 0) k) * rhs (ix2 k (j 1)) := by
  rw [Ideal.matmul_constant_zero_apply, ← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun x => Fin.ext (by
    match x with
    | ⟨0, _⟩ => exact hl0 _ _
    | ⟨1, _⟩ => exact (hl1 _ _).trans hk)
  have er : d.rhsIdx j ((contrEquiv1 d K hr hs).symm k) = ix2 k (j 1) := funext fun x => Fin.ext (by
    match x with
    | ⟨0, _⟩ => exact (hr0 _ _).trans hk
    | ⟨1, _⟩ => exact hr1 _ _)
  rw [el, er]
  rfl

end Cert.LibMatmul

end
-- ==== Proof.KIPayload.lean ====
/-
  The kernel body's arithmetic, read entry by entry on the extended reals. The body multiplies its block of input rows
  by one fused [256, 96] weight (the three gates' input blocks side by side) and its block of state rows by one fused
  [32, 64] weight (the update and reset gates' state blocks side by side); columns 0..31 and 32..63 of the sum plus
  the fused bias are the update and the reset gate before the logistic, and columns 64..95 of the first product plus
  (reset ∘ state) times the candidate's state block plus its bias go through tanh. So an entry of the stored block is
  the one-row recurrent step of the specification with the weights read off the fused arrays at column offsets 0, 32
  and 64, and an entry of the second stored block is the read-out of that row.
-/
import proofs.«167448_j50465865728448_2_alg».proof.Proof.Gen.KernelIdeal.Skeleton
import proofs.«167448_j50465865728448_2_alg».proof.Proof.LibGru
import proofs.«167448_j50465865728448_2_alg».proof.Proof.LibMatmul
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.SL.Sem Idealize.ShloMosaic.ValueIdx
open Cert.Gru

/-- The product `[4000, 256] × [256, 96]` into zeros, at row `p` and column `c`. -/
theorem mm_x (lhs : FVec Ideal S4000x256 .bf16) (rhs : FVec Ideal S256x96 .bf16) (p : Fin 4000) (c : Fin 96) :
    matmul dot_S4000x256_S256x96_S4000x96_1_0_0_1_n_n none lhs rhs (constant S4000x96 .f32 0x00000000#32) (ix2 p c) = ∑ l : Fin 256, lhs (ix2 p l) * rhs (ix2 l c) :=
  Cert.LibMatmul.matmul_zero_ix2 dot_S4000x256_S256x96_S4000x96_1_0_0_1_n_n none rfl rfl
    (fun j q => by
    unfold DotDims.lhsIdx
    rw [dif_neg (show ¬(0 : Fin S4000x256.rank) ∈ dot_S4000x256_S256x96_S4000x96_1_0_0_1_n_n.lhsBatch by decide), dif_pos (show (0 : Fin S4000x256.rank) ∈ dot_S4000x256_S256x96_S4000x96_1_0_0_1_n_n.lhsNonContracting by decide)]
    rfl)
    (fun j q => dot_S4000x256_S256x96_S4000x96_1_0_0_1_n_n.lhsIdx_val_of_single rfl j q)
    (fun j q => dot_S4000x256_S256x96_S4000x96_1_0_0_1_n_n.rhsIdx_val_of_single rfl j q)
    (fun j q => by
    unfold DotDims.rhsIdx
    rw [dif_neg (show ¬(1 : Fin S256x96.rank) ∈ dot_S4000x256_S256x96_S4000x96_1_0_0_1_n_n.rhsBatch by decide), dif_pos (show (1 : Fin S256x96.rank) ∈ dot_S4000x256_S256x96_S4000x96_1_0_0_1_n_n.rhsNonContracting by decide)]
    rfl)
    lhs rhs (ix2 p c)

/-- The product `[4000, 32] × [32, 64]` into zeros, at row `p` and column `c`. -/
theorem mm_h (lhs : FVec Ideal S4000x32 .bf16) (rhs : FVec Ideal S32x64 .bf16) (p : Fin 4000) (c : Fin 64) :
    matmul dot_S4000x32_S32x64_S4000x64_1_0_0_1_n_n none lhs rhs (constant S4000x64 .f32 0x00000000#32) (ix2 p c) = ∑ l : Fin 32, lhs (ix2 p l) * rhs (ix2 l c) :=
  Cert.LibMatmul.matmul_zero_ix2 dot_S4000x32_S32x64_S4000x64_1_0_0_1_n_n none rfl rfl
    (fun j q => by
    unfold DotDims.lhsIdx
    rw [dif_neg (show ¬(0 : Fin S4000x32.rank) ∈ dot_S4000x32_S32x64_S4000x64_1_0_0_1_n_n.lhsBatch by decide), dif_pos (show (0 : Fin S4000x32.rank) ∈ dot_S4000x32_S32x64_S4000x64_1_0_0_1_n_n.lhsNonContracting by decide)]
    rfl)
    (fun j q => dot_S4000x32_S32x64_S4000x64_1_0_0_1_n_n.lhsIdx_val_of_single rfl j q)
    (fun j q => dot_S4000x32_S32x64_S4000x64_1_0_0_1_n_n.rhsIdx_val_of_single rfl j q)
    (fun j q => by
    unfold DotDims.rhsIdx
    rw [dif_neg (show ¬(1 : Fin S32x64.rank) ∈ dot_S4000x32_S32x64_S4000x64_1_0_0_1_n_n.rhsBatch by decide), dif_pos (show (1 : Fin S32x64.rank) ∈ dot_S4000x32_S32x64_S4000x64_1_0_0_1_n_n.rhsNonContracting by decide)]
    rfl)
    lhs rhs (ix2 p c)

/-- The product `[4000, 32] × [32, 32]` into zeros, at row `p` and column `c`. -/
theorem mm_c (lhs : FVec Ideal S4000x32 .bf16) (rhs : FVec Ideal S32x32 .bf16) (p : Fin 4000) (c : Fin 32) :
    matmul dot_S4000x32_S32x32_S4000x32_1_0_0_1_n_n none lhs rhs (constant S4000x32 .f32 0x00000000#32) (ix2 p c) = ∑ l : Fin 32, lhs (ix2 p l) * rhs (ix2 l c) :=
  Cert.LibMatmul.matmul_zero_ix2 dot_S4000x32_S32x32_S4000x32_1_0_0_1_n_n none rfl rfl
    (fun j q => by
    unfold DotDims.lhsIdx
    rw [dif_neg (show ¬(0 : Fin S4000x32.rank) ∈ dot_S4000x32_S32x32_S4000x32_1_0_0_1_n_n.lhsBatch by decide), dif_pos (show (0 : Fin S4000x32.rank) ∈ dot_S4000x32_S32x32_S4000x32_1_0_0_1_n_n.lhsNonContracting by decide)]
    rfl)
    (fun j q => dot_S4000x32_S32x32_S4000x32_1_0_0_1_n_n.lhsIdx_val_of_single rfl j q)
    (fun j q => dot_S4000x32_S32x32_S4000x32_1_0_0_1_n_n.rhsIdx_val_of_single rfl j q)
    (fun j q => by
    unfold DotDims.rhsIdx
    rw [dif_neg (show ¬(1 : Fin S32x32.rank) ∈ dot_S4000x32_S32x32_S4000x32_1_0_0_1_n_n.rhsBatch by decide), dif_pos (show (1 : Fin S32x32.rank) ∈ dot_S4000x32_S32x32_S4000x32_1_0_0_1_n_n.rhsNonContracting by decide)]
    rfl)
    lhs rhs (ix2 p c)

/-- The product `[4000, 32] × [32, 3]` into zeros, at row `p` and column `c`. -/
theorem mm_o (lhs : FVec Ideal S4000x32 .bf16) (rhs : FVec Ideal S32x3 .bf16) (p : Fin 4000) (c : Fin 3) :
    matmul dot_S4000x32_S32x3_S4000x3_1_0_0_1_n_n none lhs rhs (constant S4000x3 .f32 0x00000000#32) (ix2 p c) = ∑ l : Fin 32, lhs (ix2 p l) * rhs (ix2 l c) :=
  Cert.LibMatmul.matmul_zero_ix2 dot_S4000x32_S32x3_S4000x3_1_0_0_1_n_n none rfl rfl
    (fun j q => by
    unfold DotDims.lhsIdx
    rw [dif_neg (show ¬(0 : Fin S4000x32.rank) ∈ dot_S4000x32_S32x3_S4000x3_1_0_0_1_n_n.lhsBatch by decide), dif_pos (show (0 : Fin S4000x32.rank) ∈ dot_S4000x32_S32x3_S4000x3_1_0_0_1_n_n.lhsNonContracting by decide)]
    rfl)
    (fun j q => dot_S4000x32_S32x3_S4000x3_1_0_0_1_n_n.lhsIdx_val_of_single rfl j q)
    (fun j q => dot_S4000x32_S32x3_S4000x3_1_0_0_1_n_n.rhsIdx_val_of_single rfl j q)
    (fun j q => by
    unfold DotDims.rhsIdx
    rw [dif_neg (show ¬(1 : Fin S32x3.rank) ∈ dot_S4000x32_S32x3_S4000x3_1_0_0_1_n_n.rhsBatch by decide), dif_pos (show (1 : Fin S32x3.rank) ∈ dot_S4000x32_S32x3_S4000x3_1_0_0_1_n_n.rhsNonContracting by decide)]
    rfl)
    lhs rhs (ix2 p c)

/-- The three gates' weights read off the fused arrays: the input blocks at column offsets 0, 32, 64 of the
    [256, 96] array; the update and reset gates' state blocks and biases at offsets 0, 32 of the [32, 64] and [1, 64]
    arrays; the candidate's state block and bias separate. -/
def fused (v4 : FVec Ideal S256x96 .bf16) (v7 : FVec Ideal S32x64 .bf16) (v12 : FVec Ideal S1x64 .f32)
    (v22 : FVec Ideal S32x32 .bf16) (v27 : FVec Ideal S1x32 .f32) : Weights 256 32 where
  wzx l k := v4 (ix2 l (⟨k.val, by have := k.isLt; omega⟩ : Fin 96))
  wzh l k := v7 (ix2 l (⟨k.val, by have := k.isLt; omega⟩ : Fin 64))
  bz k := v12 (ix2 (0 : Fin 1) (⟨k.val, by have := k.isLt; omega⟩ : Fin 64))
  wrx l k := v4 (ix2 l (⟨32 + k.val, by have := k.isLt; omega⟩ : Fin 96))
  wrh l k := v7 (ix2 l (⟨32 + k.val, by have := k.isLt; omega⟩ : Fin 64))
  br k := v12 (ix2 (0 : Fin 1) (⟨32 + k.val, by have := k.isLt; omega⟩ : Fin 64))
  whx l k := v4 (ix2 l (⟨64 + k.val, by have := k.isLt; omega⟩ : Fin 96))
  whh l k := v22 (ix2 l k)
  bh k := v27 (ix2 (0 : Fin 1) k)

section
variable (v0 : FVec Ideal S4000x256 .f32) (v1 : FVec Ideal S4000x32 .f32) (v4 : FVec Ideal S256x96 .bf16)
  (v7 : FVec Ideal S32x64 .bf16) (v12 : FVec Ideal S1x64 .f32) (v22 : FVec Ideal S32x32 .bf16) (v27 : FVec Ideal S1x32 .f32)

/-- The input rows against the fused input weight. -/
def px : FVec Ideal S4000x96 .f32 :=
  matmul dot_S4000x256_S256x96_S4000x96_1_0_0_1_n_n none (truncf .bf16 v0 bitsLt_bf16_f32) (shapeCast S256x96 v4 shapeCasts_S256x96_S256x96) (constant S4000x96 .f32 0x00000000#32)

theorem px_apply (p : Fin 4000) (c : Fin 96) : px v0 v4 (ix2 p c) = ∑ l : Fin 256, v0 (ix2 p l) * v4 (ix2 l c) := by
  unfold px
  rw [shapeCast_self]
  exact mm_x _ _ p c

/-- The state rows against the fused state weight of the update and reset gates. -/
def ph : FVec Ideal S4000x64 .f32 :=
  matmul dot_S4000x32_S32x64_S4000x64_1_0_0_1_n_n none (truncf .bf16 v1 bitsLt_bf16_f32) (shapeCast S32x64 v7 shapeCasts_S32x64_S32x64) (constant S4000x64 .f32 0x00000000#32)

theorem ph_apply (p : Fin 4000) (c : Fin 64) : ph v1 v7 (ix2 p c) = ∑ l : Fin 32, v1 (ix2 p l) * v7 (ix2 l c) := by
  unfold ph
  rw [shapeCast_self]
  exact mm_h _ _ p c

/-- The update and reset gates before the logistic, side by side. -/
def zr : FVec Ideal S4000x64 .f32 :=
  addf (addf (extractStridedSlice S4000x64 ![0, 0] (px v0 v4) slices_S4000x96_o0_0_S4000x64) (ph v1 v7))
    (broadcastTo S4000x64 (shapeCast S1x64 v12 shapeCasts_S1x64_S1x64) broadcasts_S1x64_S4000x64)

theorem zr_apply (p : Fin 4000) (c : Fin 64) :
    zr v0 v1 v4 v7 v12 (ix2 p c)
      = ((∑ l : Fin 256, v0 (ix2 p l) * v4 (ix2 l (⟨c.val, by have := c.isLt; omega⟩ : Fin 96)))
          + ∑ l : Fin 32, v1 (ix2 p l) * v7 (ix2 l c)) + v12 (ix2 (0 : Fin 1) c) := by
  show (extractStridedSlice S4000x64 ![0, 0] (px v0 v4) slices_S4000x96_o0_0_S4000x64 (ix2 p c) + ph v1 v7 (ix2 p c))
    + broadcastTo S4000x64 (shapeCast S1x64 v12 shapeCasts_S1x64_S1x64) broadcasts_S1x64_S4000x64 (ix2 p c) = _
  rw [slice2_axis1_apply 0 (px v0 v4) slices_S4000x96_o0_0_S4000x64 p c (⟨c.val, by have := c.isLt; omega⟩ : Fin 96) (by simp),
    px_apply, ph_apply, shapeCast_self, broadcastTo_1b_ab_apply]

/-- The update gate. -/
def zgate : FVec Ideal S4000x32 .f32 :=
  logistic (extractStridedSlice S4000x32 ![0, 0] (zr v0 v1 v4 v7 v12) slices_S4000x64_o0_0_S4000x32)

theorem zgate_apply (p : Fin 4000) (k : Fin 32) :
    zgate v0 v1 v4 v7 v12 (ix2 p k)
      = Ideal.logistic (gate (fun l => v0 (ix2 p l)) (fun l => v1 (ix2 p l)) (fused v4 v7 v12 v22 v27).wzx
          (fused v4 v7 v12 v22 v27).wzh (fused v4 v7 v12 v22 v27).bz k) := by
  show Ideal.logistic (extractStridedSlice S4000x32 ![0, 0] (zr v0 v1 v4 v7 v12) slices_S4000x64_o0_0_S4000x32 (ix2 p k)) = _
  rw [slice2_axis1_apply 0 (zr v0 v1 v4 v7 v12) slices_S4000x64_o0_0_S4000x32 p k (⟨k.val, by have := k.isLt; omega⟩ : Fin 64) (by simp),
    zr_apply]
  rfl

/-- The reset gate. -/
def rgate : FVec Ideal S4000x32 .f32 :=
  logistic (extractStridedSlice S4000x32 ![0, 32] (zr v0 v1 v4 v7 v12) slices_S4000x64_o0_32_S4000x32)

theorem rgate_apply (p : Fin 4000) (k : Fin 32) :
    rgate v0 v1 v4 v7 v12 (ix2 p k)
      = Ideal.logistic (gate (fun l => v0 (ix2 p l)) (fun l => v1 (ix2 p l)) (fused v4 v7 v12 v22 v27).wrx
          (fused v4 v7 v12 v22 v27).wrh (fused v4 v7 v12 v22 v27).br k) := by
  show Ideal.logistic (extractStridedSlice S4000x32 ![0, 32] (zr v0 v1 v4 v7 v12) slices_S4000x64_o0_32_S4000x32 (ix2 p k)) = _
  rw [slice2_axis1_apply 32 (zr v0 v1 v4 v7 v12) slices_S4000x64_o0_32_S4000x32 p k (⟨32 + k.val, by have := k.isLt; omega⟩ : Fin 64) rfl,
    zr_apply]
  rfl

/-- The candidate state. -/
def cand : FVec Ideal S4000x32 .f32 :=
  tanh (addf (addf (extractStridedSlice S4000x32 ![0, 64] (px v0 v4) slices_S4000x96_o0_64_S4000x32)
      (matmul dot_S4000x32_S32x32_S4000x32_1_0_0_1_n_n none (truncf .bf16 (mulf (rgate v0 v1 v4 v7 v12) v1) bitsLt_bf16_f32)
        (shapeCast S32x32 v22 shapeCasts_S32x32_S32x32) (constant S4000x32 .f32 0x00000000#32)))
    (broadcastTo S4000x32 (shapeCast S1x32 v27 shapeCasts_S1x32_S1x32) broadcasts_S1x32_S4000x32))

theorem cand_apply (p : Fin 4000) (k : Fin 32) :
    cand v0 v1 v4 v7 v12 v22 v27 (ix2 p k)
      = Ideal.tanh (gate (fun l => v0 (ix2 p l))
          (fun l => Ideal.logistic (gate (fun l => v0 (ix2 p l)) (fun l => v1 (ix2 p l)) (fused v4 v7 v12 v22 v27).wrx
            (fused v4 v7 v12 v22 v27).wrh (fused v4 v7 v12 v22 v27).br l) * v1 (ix2 p l))
          (fused v4 v7 v12 v22 v27).whx (fused v4 v7 v12 v22 v27).whh (fused v4 v7 v12 v22 v27).bh k) := by
  show Ideal.tanh ((extractStridedSlice S4000x32 ![0, 64] (px v0 v4) slices_S4000x96_o0_64_S4000x32 (ix2 p k)
      + matmul dot_S4000x32_S32x32_S4000x32_1_0_0_1_n_n none (truncf .bf16 (mulf (rgate v0 v1 v4 v7 v12) v1) bitsLt_bf16_f32)
        (shapeCast S32x32 v22 shapeCasts_S32x32_S32x32) (constant S4000x32 .f32 0x00000000#32) (ix2 p k))
    + broadcastTo S4000x32 (shapeCast S1x32 v27 shapeCasts_S1x32_S1x32) broadcasts_S1x32_S4000x32 (ix2 p k)) = _
  rw [slice2_axis1_apply 64 (px v0 v4) slices_S4000x96_o0_64_S4000x32 p k (⟨64 + k.val, by have := k.isLt; omega⟩ : Fin 96) rfl,
    px_apply, shapeCast_self, shapeCast_self, mm_c, broadcastTo_1b_ab_apply]
  unfold gate
  refine congrArg Ideal.tanh (congrArg (· + v27 (ix2 (0 : Fin 1) k)) (congrArg₂ (· + ·) rfl
    (Finset.sum_congr rfl fun l _ => congrArg (· * v22 (ix2 l k)) ?_)))
  show rgate v0 v1 v4 v7 v12 (ix2 p l) * v1 (ix2 p l) = _
  rw [rgate_apply v0 v1 v4 v7 v12 v22 v27]
  rfl

/-- The first stored block is the new state, row by row. -/
theorem pay2_apply (p : Fin 4000) (k : Fin 32) :
    k0_pay2 (F := Ideal) v0 v1 v4 v7 v12 v22 v27 (ix2 p k)
      = hnRow (fused v4 v7 v12 v22 v27) (fun l => v0 (ix2 p l)) (fun l => v1 (ix2 p l)) k := by
  show zgate v0 v1 v4 v7 v12 (ix2 p k) * v1 (ix2 p k)
    + (Ideal.ofBits .f32 0x3F800000#32 - zgate v0 v1 v4 v7 v12 (ix2 p k)) * cand v0 v1 v4 v7 v12 v22 v27 (ix2 p k) = _
  rw [zgate_apply v0 v1 v4 v7 v12 v22 v27, cand_apply, Ideal.ofBits_one_f32]
  rfl

end

/-- The second stored block is the read-out of the new state, row by row. -/
theorem pay1_apply (v36 : FVec Ideal S4000x32 .f32) (v41 : FVec Ideal S32x3 .bf16) (v44 : FVec Ideal S1x3 .f32)
    (p : Fin 4000) (q : Fin 3) :
    k0_pay1 (F := Ideal) v36 v41 v44 (ix2 p q)
      = outRow (fun k q => v41 (ix2 k q)) (fun q => v44 (ix2 (0 : Fin 1) q)) (fun k => v36 (ix2 p k)) q := by
  show matmul dot_S4000x32_S32x3_S4000x3_1_0_0_1_n_n none
      (truncf .bf16 (maximumf v36 (broadcast S4000x32 (Scalar.ofBits (F := Ideal) .f32 0x00000000#32))) bitsLt_bf16_f32)
      (shapeCast S32x3 v41 shapeCasts_S32x3_S32x3) (constant S4000x3 .f32 0x00000000#32) (ix2 p q)
    + broadcastTo S4000x3 (shapeCast S1x3 v44 shapeCasts_S1x3_S1x3) broadcasts_S1x3_S4000x3 (ix2 p q) = _
  rw [shapeCast_self, shapeCast_self, mm_o, broadcastTo_1b_ab_apply]
  rfl

end Cert.KernelIdeal.Hand

end
-- ==== Proof.LibNary.lean ====
/-
  The result of a many-operand host operation over a LITERAL family of references, with each operand's contents at
  its own reference: the form under which a line's contents keep being computed operand by operand. The library
  states it for four operands; here for three and for six, with the computation of a line's contents that uses them.
-/
import Idealize.ShloMosaic.Lib.StableHlo.Run

noncomputable section

namespace Idealize.ShloMosaic.StableHlo

variable {τ : Topo} {sig : RefSig} {Val : EltTy → Type}
variable {x0 x1 x2 x3 x4 x5 y : Ref sig .tc}

/-- A three-operand operation's result at its own buffer is its function of the three operands' contents, each
    read at its own reference (rather than at the family applied to a bound position). -/
theorem nary3_result
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (Proc.devRef .tc y)
      = f (Fin.cons (F (Proc.devRef .tc x0)) (Fin.cons (F (Proc.devRef .tc x1)) (Fin.cons (F (Proc.devRef .tc x2)) (fun i => i.elim0)))) := by
  rw [nary_result]; congr 1; funext k; fin_cases k <;> rfl

/-- The same for six operands. -/
theorem nary6_result
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5)) (fun i => i.elim0))))))) := by
  rw [nary_result]; congr 1; funext k; fin_cases k <;> rfl

/-- What one buffer holds after a literal line of host operations, computed operation by operation: each operation's
    result at its own buffer is its function's value, at any other reference what was there (the references told
    apart by evaluation); a three- or six-operand operation's operands are read each at its own reference, so the
    computation goes on through them. -/
macro "after_results_n" : tactic =>
  `(tactic| (simp only [after_cons, after_nil]
             repeat (first
               | rw [nullary_result] | rw [unary_result] | rw [binary_result] | rw [ternary_result] | rw [quaternary_result]
               | rw [reshape_result] | rw [nary3_result] | rw [nary6_result] | rw [nary4_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

/-- The two results above restated for one simplification pass (the result reference un-indexed, as the library
    does for its own). -/
theorem nary3_result'
    (f : ((k : Fin 3) → ((![x0, x1, x2] : Fin 3 → Ref sig .tc) k).ty.Contents Val) → y.ty.Contents Val) (hxs hy)
    (F : Valuation τ sig Val) :
    (nary (τ := τ) ![x0, x1, x2] y f hxs hy).result F (no_index (Proc.devRef .tc y))
      = f (Fin.cons (F (Proc.devRef .tc x0)) (Fin.cons (F (Proc.devRef .tc x1)) (Fin.cons (F (Proc.devRef .tc x2)) (fun i => i.elim0)))) :=
  nary3_result f hxs hy F
theorem nary6_result'
    (f : ((k : Fin 6) → ((![x0, x1, x2, x3, x4, x5] : Fin 6 → Ref sig .tc) k).ty.Contents Val) → y.ty.Contents Val) (hxs hy)
    (F : Valuation τ sig Val) :
    (nary (τ := τ) ![x0, x1, x2, x3, x4, x5] y f hxs hy).result F (no_index (Proc.devRef .tc y))
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5)) (fun i => i.elim0))))))) :=
  nary6_result f hxs hy F

/-- The same computation as one simplification pass: each shared subterm is visited once. -/
macro "after_results_simp_n" : tactic =>
  `(tactic| (simp (disch := decide) only [after_cons, after_nil,
      nullary_result', unary_result', binary_result', ternary_result', quaternary_result', reshape_result',
      nary3_result', nary6_result', nary4_result',
      nullary_result_ne', unary_result_ne', binary_result_ne', ternary_result_ne', quaternary_result_ne', reshape_result_ne',
      nary_result_ne']))

end Idealize.ShloMosaic.StableHlo

end
-- ==== Proof.LibFlatten.lean ====
/-
  Two layout steps read at an index written by coordinates. (1) The last two axes of an [a, b, c] array flattened into
  one axis of extent b · c, and the cast back: both keep the row-major position, so column m of the flat array is the
  pair (m / c, m % c), and the pair (j, k) is column j · c + k. (2) Three matrices with the same number of rows laid
  side by side: a column of the result lies in exactly one of the three blocks, at its own column less the widths of
  the blocks before it.
-/
import Idealize.ShloMosaic.Lib.Pipeline.Value
import Idealize.ShloMosaic.Lib.ValueIdx

namespace Idealize.ShloMosaic.ValueIdx

open Idealize.ShloMosaic

variable {α : Type}

/-! ## Flattening the last two axes, and back -/

/-- An [a, b, c] array cast to [a, n] with n = b · c reads, at (i, m), the operand at (i, j, k) whenever
    m = j · c + k: both have row-major position i · n + m. -/
theorem shapeCast_abc_an_apply {a b c n : ℕ} (x : (⟨3, ![a, b, c]⟩ : Shape).Idx → α)
    (h : (⟨3, ![a, b, c]⟩ : Shape).ShapeCasts ⟨2, ![a, n]⟩) (hn : n = b * c)
    (i : Fin a) (m : Fin n) (j : Fin b) (k : Fin c) (hm : m.val = j.val * c + k.val) :
    shapeCast ⟨2, ![a, n]⟩ x h (ix2 i m) = x (ix3 i j k) :=
  shapeCast_apply x h _ _ (by
    rw [Shape.rowMajor_val_three, Shape.rowMajor_val_two]
    show (i.val * b + j.val) * c + k.val = i.val * n + m.val
    rw [hm, hn, Nat.add_mul, Nat.mul_assoc, Nat.add_assoc])

/-- The same with the pair written out: column m of the flat array is (m / c, m % c). -/
theorem shapeCast_abc_an_eq {a b c n : ℕ} (x : (⟨3, ![a, b, c]⟩ : Shape).Idx → α)
    (h : (⟨3, ![a, b, c]⟩ : Shape).ShapeCasts ⟨2, ![a, n]⟩) (hn : n = b * c) (i : Fin a) (m : Fin n) :
    shapeCast ⟨2, ![a, n]⟩ x h (ix2 i m)
      = x (ix3 i ⟨m.val / c, Nat.div_lt_of_lt_mul (by rw [Nat.mul_comm]; exact lt_of_lt_of_eq m.isLt hn)⟩
          ⟨m.val % c, Nat.mod_lt _ (Nat.pos_of_ne_zero fun hc => by
            have hm := lt_of_lt_of_eq m.isLt hn
            rw [hc, Nat.mul_zero] at hm
            exact Nat.not_lt_zero _ hm)⟩) :=
  shapeCast_abc_an_apply x h hn i m _ _ (by
    show m.val = m.val / c * c + m.val % c
    rw [Nat.mul_comm, Nat.div_add_mod])

/-- An [a, n] array with n = b · c cast to [a, b, c] reads, at (i, j, k), the operand at (i, m) whenever
    m = j · c + k. -/
theorem shapeCast_an_abc_apply {a b c n : ℕ} (x : (⟨2, ![a, n]⟩ : Shape).Idx → α)
    (h : (⟨2, ![a, n]⟩ : Shape).ShapeCasts ⟨3, ![a, b, c]⟩) (hn : n = b * c)
    (i : Fin a) (j : Fin b) (k : Fin c) (m : Fin n) (hm : m.val = j.val * c + k.val) :
    shapeCast ⟨3, ![a, b, c]⟩ x h (ix3 i j k) = x (ix2 i m) :=
  shapeCast_apply x h _ _ (by
    rw [Shape.rowMajor_val_three, Shape.rowMajor_val_two]
    show i.val * n + m.val = (i.val * b + j.val) * c + k.val
    rw [hm, hn, Nat.add_mul, Nat.mul_assoc, Nat.add_assoc])

/-- The same with the column written out: the pair (j, k) is column j · c + k. -/
theorem shapeCast_an_abc_eq {a b c n : ℕ} (x : (⟨2, ![a, n]⟩ : Shape).Idx → α)
    (h : (⟨2, ![a, n]⟩ : Shape).ShapeCasts ⟨3, ![a, b, c]⟩) (hn : n = b * c) (i : Fin a) (j : Fin b) (k : Fin c) :
    shapeCast ⟨3, ![a, b, c]⟩ x h (ix3 i j k)
      = x (ix2 i ⟨j.val * c + k.val, by
          have hj := j.isLt; have hk := k.isLt
          calc j.val * c + k.val < j.val * c + c := Nat.add_lt_add_left hk _
            _ = (j.val + 1) * c := (Nat.succ_mul _ _).symm
            _ ≤ b * c := Nat.mul_le_mul_right _ hj
            _ = n := hn.symm⟩) :=
  shapeCast_an_abc_apply x h hn i j k _ rfl

/-! ## Three blocks side by side -/

section Three
variable {a n₁ n₂ n₃ m : ℕ} (x₁ : (⟨2, ![a, n₁]⟩ : Shape).Idx → α) (x₂ : (⟨2, ![a, n₂]⟩ : Shape).Idx → α)
  (x₃ : (⟨2, ![a, n₃]⟩ : Shape).Idx → α)
  (h : Shape.Concatenates [⟨2, ![a, n₁]⟩, ⟨2, ![a, n₂]⟩, ⟨2, ![a, n₃]⟩] ⟨2, ![a, m]⟩ 1)

/-- A column of the result that is column `c'` of the first block. -/
theorem concatenate3_cols_apply_fst (i : Fin a) (c : Fin m) (c' : Fin n₁) (hc : c'.val = c.val) :
    concatenate ⟨2, ![a, m]⟩ 1 [⟨⟨2, ![a, n₁]⟩, x₁⟩, ⟨⟨2, ![a, n₂]⟩, x₂⟩, ⟨⟨2, ![a, n₃]⟩, x₃⟩] h (ix2 i c) = x₁ (ix2 i c') :=
  concatenate_apply_piece 1 [⟨⟨2, ![a, n₁]⟩, x₁⟩, ⟨⟨2, ![a, n₂]⟩, x₂⟩, ⟨⟨2, ![a, n₃]⟩, x₃⟩] h (ix2 i c) 0 (by simp) _ x₁ rfl rfl 0 rfl (ix2 i c')
    (fun b hb => by
      match b with
      | ⟨0, _⟩ => rfl
      | ⟨1, _⟩ => exact absurd rfl hb)
    (by show 0 + c'.val = c.val; omega)

/-- A column of the result that is column `c'` of the second block: past the first block's width. -/
theorem concatenate3_cols_apply_snd (i : Fin a) (c : Fin m) (c' : Fin n₂) (hc : n₁ + c'.val = c.val) :
    concatenate ⟨2, ![a, m]⟩ 1 [⟨⟨2, ![a, n₁]⟩, x₁⟩, ⟨⟨2, ![a, n₂]⟩, x₂⟩, ⟨⟨2, ![a, n₃]⟩, x₃⟩] h (ix2 i c) = x₂ (ix2 i c') :=
  concatenate_apply_piece 1 [⟨⟨2, ![a, n₁]⟩, x₁⟩, ⟨⟨2, ![a, n₂]⟩, x₂⟩, ⟨⟨2, ![a, n₃]⟩, x₃⟩] h (ix2 i c) 1 (by simp) _ x₂ rfl rfl n₁ (by simp) (ix2 i c')
    (fun b hb => by
      match b with
      | ⟨0, _⟩ => rfl
      | ⟨1, _⟩ => exact absurd rfl hb)
    hc

/-- A column of the result that is column `c'` of the third block: past the first two blocks' widths. -/
theorem concatenate3_cols_apply_trd (i : Fin a) (c : Fin m) (c' : Fin n₃) (hc : n₁ + n₂ + c'.val = c.val) :
    concatenate ⟨2, ![a, m]⟩ 1 [⟨⟨2, ![a, n₁]⟩, x₁⟩, ⟨⟨2, ![a, n₂]⟩, x₂⟩, ⟨⟨2, ![a, n₃]⟩, x₃⟩] h (ix2 i c) = x₃ (ix2 i c') :=
  concatenate_apply_piece 1 [⟨⟨2, ![a, n₁]⟩, x₁⟩, ⟨⟨2, ![a, n₂]⟩, x₂⟩, ⟨⟨2, ![a, n₃]⟩, x₃⟩] h (ix2 i c) 2 (by simp) _ x₃ rfl rfl (n₁ + n₂) (by simp) (ix2 i c')
    (fun b hb => by
      match b with
      | ⟨0, _⟩ => rfl
      | ⟨1, _⟩ => exact absurd rfl hb)
    hc

end Three

end Idealize.ShloMosaic.ValueIdx
-- ==== Proof.KIHost.lean ====
/-
  What the lines before the launch leave in the seven weight and bias arrays the launch stages, read at an entry.
  Each gate's [2, 288, 32] weight is summed over its leading axis; rows 0..255 of the three sums, laid side by side,
  make the fused [256, 96] input weight, rows 256..287 of the first two the fused [32, 64] state weight, rows 256..287
  of the third the candidate's state weight; the first two biases joined make the fused [1, 64] bias. The changes of
  float format are the identity on extended reals.
-/
import proofs.«167448_j50465865728448_2_alg».proof.Proof.KIEntry
import proofs.«167448_j50465865728448_2_alg».proof.Proof.LibGru
import proofs.«167448_j50465865728448_2_alg».proof.Proof.LibNary
import proofs.«167448_j50465865728448_2_alg».proof.Proof.LibFlatten
import Idealize.ShloMosaic.Lib.ValueLayout
import Idealize.ShloMosaic.Lib.Pipeline.Value

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo
open Cert.Gru

section Pure
variable (W : FVec Ideal S2x288x32 .f32)

/-- A gate's two weight slabs added. -/
def wsumArr : FVec Ideal S288x32 .f32 :=
  addf (shapeCast S288x32 (extractStridedSlice S1x288x32 ![0, 0, 0] W slices_S2x288x32_S1x288x32_0_0_0) shapeCasts_S1x288x32_S288x32)
    (shapeCast S288x32 (extractStridedSlice S1x288x32 ![1, 0, 0] W slices_S2x288x32_S1x288x32_1_0_0) shapeCasts_S1x288x32_S288x32)

theorem wsumArr_apply (l : Fin 288) (k : Fin 32) : wsumArr W (ix2 l k) = wsum W l k := by
  show shapeCast S288x32 (extractStridedSlice S1x288x32 ![0, 0, 0] W slices_S2x288x32_S1x288x32_0_0_0) shapeCasts_S1x288x32_S288x32 (ix2 l k)
    + shapeCast S288x32 (extractStridedSlice S1x288x32 ![1, 0, 0] W slices_S2x288x32_S1x288x32_1_0_0) shapeCasts_S1x288x32_S288x32 (ix2 l k) = _
  rw [shapeCast_1ab_ab_apply, shapeCast_1ab_ab_apply,
    extractStridedSlice_apply ![0, 0, 0] W slices_S2x288x32_S1x288x32_0_0_0 (ix3 (0 : Fin 1) l k) (ix3 (0 : Fin 2) l k) (fun a => by
      match a with
      | ⟨0, _⟩ => rfl
      | ⟨1, _⟩ => exact (Nat.zero_add _).symm
      | ⟨2, _⟩ => exact (Nat.zero_add _).symm),
    extractStridedSlice_apply ![1, 0, 0] W slices_S2x288x32_S1x288x32_1_0_0 (ix3 (0 : Fin 1) l k) (ix3 (1 : Fin 2) l k) (fun a => by
      match a with
      | ⟨0, _⟩ => rfl
      | ⟨1, _⟩ => exact (Nat.zero_add _).symm
      | ⟨2, _⟩ => exact (Nat.zero_add _).symm)]
  rfl

/-- The rows that multiply the input row, and the rows that multiply the state row. -/
def wTop : FVec Ideal S256x32 .f32 := extractStridedSlice S256x32 ![0, 0] (wsumArr W) slices_S288x32_S256x32_0_0
def wBot : FVec Ideal S32x32 .f32 := extractStridedSlice S32x32 ![256, 0] (wsumArr W) slices_S288x32_S32x32_256_0

theorem wTop_apply (l : Fin 256) (k : Fin 32) :
    wTop W (ix2 l k) = wsum W (⟨l.val, by have := l.isLt; omega⟩ : Fin 288) k :=
  (slice2_axis0_apply 0 (wsumArr W) slices_S288x32_S256x32_0_0 l k (⟨l.val, by have := l.isLt; omega⟩ : Fin 288)
    (Nat.zero_add _).symm).trans (wsumArr_apply W _ k)

theorem wBot_apply (l : Fin 32) (k : Fin 32) :
    wBot W (ix2 l k) = wsum W (⟨256 + l.val, by have := l.isLt; omega⟩ : Fin 288) k :=
  (slice2_axis0_apply 256 (wsumArr W) slices_S288x32_S32x32_256_0 l k (⟨256 + l.val, by have := l.isLt; omega⟩ : Fin 288)
    rfl).trans (wsumArr_apply W _ k)

end Pure

section Fused
variable (W4 W6 W8 : FVec Ideal S2x288x32 .f32) (b5 b7 : FVec Ideal S32 .f32)

/-- The fused input weight, the fused state weight and the fused bias. -/
def fusedX : FVec Ideal S256x96 .bf16 :=
  truncf .bf16 (concatenate S256x96 1 [⟨S256x32, wTop W4⟩, ⟨S256x32, wTop W6⟩, ⟨S256x32, wTop W8⟩]
    concatenates_S256x32_S256x32_S256x32_S256x96_d1) bitsLt_bf16_f32
def fusedH : FVec Ideal S32x64 .bf16 :=
  truncf .bf16 (concatenate S32x64 1 [⟨S32x32, wBot W4⟩, ⟨S32x32, wBot W6⟩] concatenates_S32x32_S32x32_S32x64_d1) bitsLt_bf16_f32
def fusedB : FVec Ideal S1x64 .f32 :=
  shapeCast S1x64 (concatenate S64 0 [⟨S32, b5⟩, ⟨S32, b7⟩] concatenates_S32_S32_S64_d0) shapeCasts_S64_S1x64

theorem fusedX_z (l : Fin 256) (k : Fin 32) :
    fusedX W4 W6 W8 (ix2 l (⟨k.val, by have := k.isLt; omega⟩ : Fin 96)) = wsum W4 (⟨l.val, by have := l.isLt; omega⟩ : Fin 288) k :=
  (concatenate3_cols_apply_fst (a := 256) (n₁ := 32) (n₂ := 32) (n₃ := 32) (m := 96) (wTop W4) (wTop W6) (wTop W8)
    concatenates_S256x32_S256x32_S256x32_S256x96_d1 l (⟨k.val, by have := k.isLt; omega⟩ : Fin 96) k rfl).trans (wTop_apply W4 l k)

theorem fusedX_r (l : Fin 256) (k : Fin 32) :
    fusedX W4 W6 W8 (ix2 l (⟨32 + k.val, by have := k.isLt; omega⟩ : Fin 96)) = wsum W6 (⟨l.val, by have := l.isLt; omega⟩ : Fin 288) k :=
  (concatenate3_cols_apply_snd (a := 256) (n₁ := 32) (n₂ := 32) (n₃ := 32) (m := 96) (wTop W4) (wTop W6) (wTop W8)
    concatenates_S256x32_S256x32_S256x32_S256x96_d1 l (⟨32 + k.val, by have := k.isLt; omega⟩ : Fin 96) k rfl).trans (wTop_apply W6 l k)

theorem fusedX_h (l : Fin 256) (k : Fin 32) :
    fusedX W4 W6 W8 (ix2 l (⟨64 + k.val, by have := k.isLt; omega⟩ : Fin 96)) = wsum W8 (⟨l.val, by have := l.isLt; omega⟩ : Fin 288) k :=
  (concatenate3_cols_apply_trd (a := 256) (n₁ := 32) (n₂ := 32) (n₃ := 32) (m := 96) (wTop W4) (wTop W6) (wTop W8)
    concatenates_S256x32_S256x32_S256x32_S256x96_d1 l (⟨64 + k.val, by have := k.isLt; omega⟩ : Fin 96) k rfl).trans (wTop_apply W8 l k)

theorem fusedH_z (l : Fin 32) (k : Fin 32) :
    fusedH W4 W6 (ix2 l (⟨k.val, by have := k.isLt; omega⟩ : Fin 64)) = wsum W4 (⟨256 + l.val, by have := l.isLt; omega⟩ : Fin 288) k :=
  (concatenate_pair_apply_left (t := S32x64) (s₁ := S32x32) (s₂ := S32x32) 1 (wBot W4) (wBot W6) concatenates_S32x32_S32x32_S32x64_d1
    (ix2 l (⟨k.val, by have := k.isLt; omega⟩ : Fin 64)) rfl (ix2 l k) (fun b => by
      match b with
      | ⟨0, _⟩ => rfl
      | ⟨1, _⟩ => rfl)).trans (wBot_apply W4 l k)

theorem fusedH_r (l : Fin 32) (k : Fin 32) :
    fusedH W4 W6 (ix2 l (⟨32 + k.val, by have := k.isLt; omega⟩ : Fin 64)) = wsum W6 (⟨256 + l.val, by have := l.isLt; omega⟩ : Fin 288) k :=
  (concatenate_pair_apply_right (t := S32x64) (s₁ := S32x32) (s₂ := S32x32) 1 (wBot W4) (wBot W6) concatenates_S32x32_S32x32_S32x64_d1
    (ix2 l (⟨32 + k.val, by have := k.isLt; omega⟩ : Fin 64)) rfl rfl (ix2 l k) (fun b hb => by
      match b with
      | ⟨0, _⟩ => rfl
      | ⟨1, _⟩ => exact absurd rfl hb)
    (by show k.val + 32 = 32 + k.val; omega)).trans (wBot_apply W6 l k)

theorem fusedB_z (k : Fin 32) :
    fusedB b5 b7 (ix2 (0 : Fin 1) (⟨k.val, by have := k.isLt; omega⟩ : Fin 64)) = b5 (ix1 k) :=
  (shapeCast_a_1a_apply _ shapeCasts_S64_S1x64 (0 : Fin 1) (⟨k.val, by have := k.isLt; omega⟩ : Fin 64)).trans
    (concatenate_pair_apply_left (t := S64) (s₁ := S32) (s₂ := S32) 0 b5 b7 concatenates_S32_S32_S64_d0
      (ix1 (⟨k.val, by have := k.isLt; omega⟩ : Fin 64)) rfl (ix1 k) (fun b => by
        match b with
        | ⟨0, _⟩ => rfl))

theorem fusedB_r (k : Fin 32) :
    fusedB b5 b7 (ix2 (0 : Fin 1) (⟨32 + k.val, by have := k.isLt; omega⟩ : Fin 64)) = b7 (ix1 k) :=
  (shapeCast_a_1a_apply _ shapeCasts_S64_S1x64 (0 : Fin 1) (⟨32 + k.val, by have := k.isLt; omega⟩ : Fin 64)).trans
    (concatenate_pair_apply_right (t := S64) (s₁ := S32) (s₂ := S32) 0 b5 b7 concatenates_S32_S32_S64_d0
      (ix1 (⟨32 + k.val, by have := k.isLt; omega⟩ : Fin 64)) rfl rfl (ix1 k) (fun b hb => by
        match b with
        | ⟨0, _⟩ => exact absurd rfl hb)
      (by show k.val + 32 = 32 + k.val; omega))

end Fused

/-! ## The arrays the launch stages -/

section Entry
variable (m : (ℓ : Loc nD τ sig) → Buf (Elt Ideal) ℓ) (c : Dev nD)

theorem V_v22 : (V m c main_v22 : S256x96.Idx → EReal) = fusedX (m ((c : Thread nD τ).loc main_arg4)) (m ((c : Thread nD τ).loc main_arg6)) (m ((c : Thread nD τ).loc main_arg8)) := by
  dsimp only [V, hostOps0]
  after_results_simp_n <;> rfl

theorem V_v24 : (V m c main_v24 : S32x64.Idx → EReal) = fusedH (m ((c : Thread nD τ).loc main_arg4)) (m ((c : Thread nD τ).loc main_arg6)) := by
  dsimp only [V, hostOps0]
  after_results_simp_n <;> rfl

theorem V_v28 : (V m c main_v28 : S1x64.Idx → EReal) = fusedB (m ((c : Thread nD τ).loc main_arg5)) (m ((c : Thread nD τ).loc main_arg7)) := by
  dsimp only [V, hostOps0]
  after_results_simp_n <;> rfl

theorem V_v25 : @Eq (S32x32.Idx → EReal) (V m c main_v25) (wBot (m ((c : Thread nD τ).loc main_arg8))) := by
  dsimp only [V, hostOps0]
  after_results_simp_n <;> rfl

theorem V_v29 : @Eq (S1x32.Idx → EReal) (V m c main_v29) (shapeCast (s := S32) S1x32 (m ((c : Thread nD τ).loc main_arg9)) shapeCasts_S32_S1x32) := by
  dsimp only [V, hostOps0]
  after_results_simp_n <;> rfl

theorem V_v26 : @Eq (S32x3.Idx → EReal) (V m c main_v26) (truncf (F := Ideal) (s := S32x3) (φ := .f32) .bf16 (m ((c : Thread nD τ).loc main_arg10)) bitsLt_bf16_f32) := by
  dsimp only [V, hostOps0]
  after_results_simp_n <;> rfl

theorem V_v30 : @Eq (S1x3.Idx → EReal) (V m c main_v30) (shapeCast (s := S3) S1x3 (m ((c : Thread nD τ).loc main_arg11)) shapeCasts_S3_S1x3) := by
  dsimp only [V, hostOps0]
  after_results_simp_n <;> rfl

end Entry

end Cert.KernelIdeal.Hand

end
-- ==== Proof.KIValue.lean ====
/-
  From blocks to arrays. Grid point `t` works on rows 4000·t .. 4000·t + 3999 of the input and state arrays and on the
  whole of every weight and bias array; what it writes back is rows 4000·t .. of the new-state array and of the
  read-out array. A row of the new state depends on the same row of the input and of the state only, so the block a
  point writes is that band of rows of ONE whole-array function of the arguments; the 75 bands tile the 300000 rows,
  so after the run the two result arrays are those functions.
-/
import proofs.«167448_j50465865728448_2_alg».proof.Proof.KIFrame
import proofs.«167448_j50465865728448_2_alg».proof.Proof.KIPayload
import proofs.«167448_j50465865728448_2_alg».proof.Proof.KIHost

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat Cfg Window)
open Cert.Gru

theorem hz : (![0, 0] : Fin 2 → Nat) = fun _ => 0 := funext fun a => by fin_cases a <;> rfl

/-- The printed index maps over the grid: the four row-banded windows are at block `(t, 0)`, the seven others at
    `(0, 0)`; the grid has 75 points. -/
theorem idx_facts : ∀ t : Fin cfg0.N, t.val < 75
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- Row `p` of point `t`'s band, as a row of the whole array. -/
def row (t : Fin cfg0.N) (p : Fin 4000) : Fin 300000 :=
  ⟨t.val * 4000 + p.val, by have h := (idx_facts t).1; have := p.isLt; omega⟩

/-- Window 0's block at point `t` is rows 4000·t .. of its array. -/
theorem read_rows0 (X : S300000x256.Idx → EReal) (t : Fin cfg0.N) (p : Fin 4000) (l : Fin 256) :
    ((cfg0.win 0).blk t).view.read (Elt Ideal) X (ix2 p l) = X (ix2 (row t p) l) := by
  show X (((cfg0.win 0).blk t).view.emb (ix2 p l)) = X (ix2 (row t p) l)
  refine congrArg X (funext fun a => Fin.ext ?_)
  obtain ⟨ht, e0a, e0b, e1a, e1b, e2a, e2b, e3a, e3b, e4a, e4b, e5a, e5b, e6a, e6b, e7a, e7b, e8a, e8b, e9a, e9b, e10a, e10b⟩ := idx_facts t
  match a with
  | ⟨0, _⟩ => show win0_0.index t (0 : Fin 2) * 4000 + 1 * p.val = t.val * 4000 + p.val; omega
  | ⟨1, _⟩ => show win0_0.index t (1 : Fin 2) * 256 + 1 * l.val = l.val; omega
/-- Window 1's block at point `t` is rows 4000·t .. of its array. -/
theorem read_rows1 (X : S300000x32.Idx → EReal) (t : Fin cfg0.N) (p : Fin 4000) (l : Fin 32) :
    ((cfg0.win 1).blk t).view.read (Elt Ideal) X (ix2 p l) = X (ix2 (row t p) l) := by
  show X (((cfg0.win 1).blk t).view.emb (ix2 p l)) = X (ix2 (row t p) l)
  refine congrArg X (funext fun a => Fin.ext ?_)
  obtain ⟨ht, e0a, e0b, e1a, e1b, e2a, e2b, e3a, e3b, e4a, e4b, e5a, e5b, e6a, e6b, e7a, e7b, e8a, e8b, e9a, e9b, e10a, e10b⟩ := idx_facts t
  match a with
  | ⟨0, _⟩ => show win0_1.index t (0 : Fin 2) * 4000 + 1 * p.val = t.val * 4000 + p.val; omega
  | ⟨1, _⟩ => show win0_1.index t (1 : Fin 2) * 32 + 1 * l.val = l.val; omega
/-- Window 9's block at point `t` is rows 4000·t .. of its array. -/
theorem read_rows9 (X : S300000x32.Idx → EReal) (t : Fin cfg0.N) (p : Fin 4000) (l : Fin 32) :
    ((cfg0.win 9).blk t).view.read (Elt Ideal) X (ix2 p l) = X (ix2 (row t p) l) := by
  show X (((cfg0.win 9).blk t).view.emb (ix2 p l)) = X (ix2 (row t p) l)
  refine congrArg X (funext fun a => Fin.ext ?_)
  obtain ⟨ht, e0a, e0b, e1a, e1b, e2a, e2b, e3a, e3b, e4a, e4b, e5a, e5b, e6a, e6b, e7a, e7b, e8a, e8b, e9a, e9b, e10a, e10b⟩ := idx_facts t
  match a with
  | ⟨0, _⟩ => show win0_9.index t (0 : Fin 2) * 4000 + 1 * p.val = t.val * 4000 + p.val; omega
  | ⟨1, _⟩ => show win0_9.index t (1 : Fin 2) * 32 + 1 * l.val = l.val; omega
/-- Window 10's block at point `t` is rows 4000·t .. of its array. -/
theorem read_rows10 (X : S300000x3.Idx → EReal) (t : Fin cfg0.N) (p : Fin 4000) (l : Fin 3) :
    ((cfg0.win 10).blk t).view.read (Elt Ideal) X (ix2 p l) = X (ix2 (row t p) l) := by
  show X (((cfg0.win 10).blk t).view.emb (ix2 p l)) = X (ix2 (row t p) l)
  refine congrArg X (funext fun a => Fin.ext ?_)
  obtain ⟨ht, e0a, e0b, e1a, e1b, e2a, e2b, e3a, e3b, e4a, e4b, e5a, e5b, e6a, e6b, e7a, e7b, e8a, e8b, e9a, e9b, e10a, e10b⟩ := idx_facts t
  match a with
  | ⟨0, _⟩ => show win0_10.index t (0 : Fin 2) * 4000 + 1 * p.val = t.val * 4000 + p.val; omega
  | ⟨1, _⟩ => show win0_10.index t (1 : Fin 2) * 3 + 1 * l.val = l.val; omega
/-- Window 2's block at every point is its whole array. -/
theorem read_whole2 (X : S256x96.Idx → EReal) (t : Fin cfg0.N) (y : S256x96.Idx) :
    ((cfg0.win 2).blk t).view.read (Elt Ideal) X y = X y := by
  show X (((cfg0.win 2).blk t).view.emb y) = X y
  refine congrArg X (funext fun a => Fin.ext ?_)
  obtain ⟨ht, e0a, e0b, e1a, e1b, e2a, e2b, e3a, e3b, e4a, e4b, e5a, e5b, e6a, e6b, e7a, e7b, e8a, e8b, e9a, e9b, e10a, e10b⟩ := idx_facts t
  match a with
  | ⟨0, _⟩ => show win0_2.index t (0 : Fin 2) * 256 + 1 * (y 0).val = (y 0).val; omega
  | ⟨1, _⟩ => show win0_2.index t (1 : Fin 2) * 96 + 1 * (y 1).val = (y 1).val; omega
/-- Window 3's block at every point is its whole array. -/
theorem read_whole3 (X : S32x64.Idx → EReal) (t : Fin cfg0.N) (y : S32x64.Idx) :
    ((cfg0.win 3).blk t).view.read (Elt Ideal) X y = X y := by
  show X (((cfg0.win 3).blk t).view.emb y) = X y
  refine congrArg X (funext fun a => Fin.ext ?_)
  obtain ⟨ht, e0a, e0b, e1a, e1b, e2a, e2b, e3a, e3b, e4a, e4b, e5a, e5b, e6a, e6b, e7a, e7b, e8a, e8b, e9a, e9b, e10a, e10b⟩ := idx_facts t
  match a with
  | ⟨0, _⟩ => show win0_3.index t (0 : Fin 2) * 32 + 1 * (y 0).val = (y 0).val; omega
  | ⟨1, _⟩ => show win0_3.index t (1 : Fin 2) * 64 + 1 * (y 1).val = (y 1).val; omega
/-- Window 4's block at every point is its whole array. -/
theorem read_whole4 (X : S1x64.Idx → EReal) (t : Fin cfg0.N) (y : S1x64.Idx) :
    ((cfg0.win 4).blk t).view.read (Elt Ideal) X y = X y := by
  show X (((cfg0.win 4).blk t).view.emb y) = X y
  refine congrArg X (funext fun a => Fin.ext ?_)
  obtain ⟨ht, e0a, e0b, e1a, e1b, e2a, e2b, e3a, e3b, e4a, e4b, e5a, e5b, e6a, e6b, e7a, e7b, e8a, e8b, e9a, e9b, e10a, e10b⟩ := idx_facts t
  match a with
  | ⟨0, _⟩ => show win0_4.index t (0 : Fin 2) * 1 + 1 * (y 0).val = (y 0).val; omega
  | ⟨1, _⟩ => show win0_4.index t (1 : Fin 2) * 64 + 1 * (y 1).val = (y 1).val; omega
/-- Window 5's block at every point is its whole array. -/
theorem read_whole5 (X : S32x32.Idx → EReal) (t : Fin cfg0.N) (y : S32x32.Idx) :
    ((cfg0.win 5).blk t).view.read (Elt Ideal) X y = X y := by
  show X (((cfg0.win 5).blk t).view.emb y) = X y
  refine congrArg X (funext fun a => Fin.ext ?_)
  obtain ⟨ht, e0a, e0b, e1a, e1b, e2a, e2b, e3a, e3b, e4a, e4b, e5a, e5b, e6a, e6b, e7a, e7b, e8a, e8b, e9a, e9b, e10a, e10b⟩ := idx_facts t
  match a with
  | ⟨0, _⟩ => show win0_5.index t (0 : Fin 2) * 32 + 1 * (y 0).val = (y 0).val; omega
  | ⟨1, _⟩ => show win0_5.index t (1 : Fin 2) * 32 + 1 * (y 1).val = (y 1).val; omega
/-- Window 6's block at every point is its whole array. -/
theorem read_whole6 (X : S1x32.Idx → EReal) (t : Fin cfg0.N) (y : S1x32.Idx) :
    ((cfg0.win 6).blk t).view.read (Elt Ideal) X y = X y := by
  show X (((cfg0.win 6).blk t).view.emb y) = X y
  refine congrArg X (funext fun a => Fin.ext ?_)
  obtain ⟨ht, e0a, e0b, e1a, e1b, e2a, e2b, e3a, e3b, e4a, e4b, e5a, e5b, e6a, e6b, e7a, e7b, e8a, e8b, e9a, e9b, e10a, e10b⟩ := idx_facts t
  match a with
  | ⟨0, _⟩ => show win0_6.index t (0 : Fin 2) * 1 + 1 * (y 0).val = (y 0).val; omega
  | ⟨1, _⟩ => show win0_6.index t (1 : Fin 2) * 32 + 1 * (y 1).val = (y 1).val; omega
/-- Window 7's block at every point is its whole array. -/
theorem read_whole7 (X : S32x3.Idx → EReal) (t : Fin cfg0.N) (y : S32x3.Idx) :
    ((cfg0.win 7).blk t).view.read (Elt Ideal) X y = X y := by
  show X (((cfg0.win 7).blk t).view.emb y) = X y
  refine congrArg X (funext fun a => Fin.ext ?_)
  obtain ⟨ht, e0a, e0b, e1a, e1b, e2a, e2b, e3a, e3b, e4a, e4b, e5a, e5b, e6a, e6b, e7a, e7b, e8a, e8b, e9a, e9b, e10a, e10b⟩ := idx_facts t
  match a with
  | ⟨0, _⟩ => show win0_7.index t (0 : Fin 2) * 32 + 1 * (y 0).val = (y 0).val; omega
  | ⟨1, _⟩ => show win0_7.index t (1 : Fin 2) * 3 + 1 * (y 1).val = (y 1).val; omega
/-- Window 8's block at every point is its whole array. -/
theorem read_whole8 (X : S1x3.Idx → EReal) (t : Fin cfg0.N) (y : S1x3.Idx) :
    ((cfg0.win 8).blk t).view.read (Elt Ideal) X y = X y := by
  show X (((cfg0.win 8).blk t).view.emb y) = X y
  refine congrArg X (funext fun a => Fin.ext ?_)
  obtain ⟨ht, e0a, e0b, e1a, e1b, e2a, e2b, e3a, e3b, e4a, e4b, e5a, e5b, e6a, e6b, e7a, e7b, e8a, e8b, e9a, e9b, e10a, e10b⟩ := idx_facts t
  match a with
  | ⟨0, _⟩ => show win0_8.index t (0 : Fin 2) * 1 + 1 * (y 0).val = (y 0).val; omega
  | ⟨1, _⟩ => show win0_8.index t (1 : Fin 2) * 3 + 1 * (y 1).val = (y 1).val; omega

section
variable (m : (ℓ : Loc nD τ sig) → Buf (Elt Ideal) ℓ) (ρ : Dev nD → PrngReg) (c : Dev nD)

/-- The three gates' weights as the arguments give them. -/
def Wof : Weights 256 32 := weightsOf (K := 256) (H := 32) (KH := 288) rfl (m ((c : Thread nD τ).loc main_arg4)) (m ((c : Thread nD τ).loc main_arg6)) (m ((c : Thread nD τ).loc main_arg8)) (m ((c : Thread nD τ).loc main_arg5)) (m ((c : Thread nD τ).loc main_arg7)) (m ((c : Thread nD τ).loc main_arg9))

/-- The two results as functions of the arguments. -/
def HnOf : S300000x32.Idx → EReal := HnG (Wof m c) (m ((c : Thread nD τ).loc main_arg0)) (m ((c : Thread nD τ).loc main_arg3))
def OutOf : S300000x3.Idx → EReal := OutG (Wof m c) (m ((c : Thread nD τ).loc main_arg0)) (m ((c : Thread nD τ).loc main_arg3)) (m ((c : Thread nD τ).loc main_arg10)) (m ((c : Thread nD τ).loc main_arg11))

/-! ## The input blocks at a point -/

theorem iblk0_apply (t : Fin cfg0.N) (p : Fin 4000) (l : Fin 256) :
    iblk m c 0 t (ix2 p l) = (m ((c : Thread nD τ).loc main_arg0)) (ix2 (row t p) l) :=
  (read_rows0 (V m c main_arg0) t p l).trans (congrFun (V_main_arg0 m c) _)

theorem iblk1_apply (t : Fin cfg0.N) (p : Fin 4000) (l : Fin 32) :
    iblk m c 1 t (ix2 p l) = (m ((c : Thread nD τ).loc main_arg3)) (ix2 (row t p) l) :=
  (read_rows1 (V m c main_arg3) t p l).trans (congrFun (V_main_arg3 m c) _)

theorem iblk2_apply (t : Fin cfg0.N) (y : S256x96.Idx) : iblk m c 2 t y = fusedX (m ((c : Thread nD τ).loc main_arg4)) (m ((c : Thread nD τ).loc main_arg6)) (m ((c : Thread nD τ).loc main_arg8)) y :=
  (read_whole2 (V m c main_v22) t y).trans (congrFun (V_v22 m c) y)
theorem iblk3_apply (t : Fin cfg0.N) (y : S32x64.Idx) : iblk m c 3 t y = fusedH (m ((c : Thread nD τ).loc main_arg4)) (m ((c : Thread nD τ).loc main_arg6)) y :=
  (read_whole3 (V m c main_v24) t y).trans (congrFun (V_v24 m c) y)
theorem iblk4_apply (t : Fin cfg0.N) (y : S1x64.Idx) : iblk m c 4 t y = fusedB (m ((c : Thread nD τ).loc main_arg5)) (m ((c : Thread nD τ).loc main_arg7)) y :=
  (read_whole4 (V m c main_v28) t y).trans (congrFun (V_v28 m c) y)
theorem iblk5_apply (t : Fin cfg0.N) (y : S32x32.Idx) : iblk m c 5 t y = wBot (m ((c : Thread nD τ).loc main_arg8)) y :=
  (read_whole5 (V m c main_v25) t y).trans (congrFun (V_v25 m c) y)
theorem iblk6_apply (t : Fin cfg0.N) (k : Fin 32) : iblk m c 6 t (ix2 (0 : Fin 1) k) = (m ((c : Thread nD τ).loc main_arg9)) (ix1 k) :=
  ((read_whole6 (V m c main_v29) t (ix2 (0 : Fin 1) k)).trans (congrFun (V_v29 m c) _)).trans
    (shapeCast_a_1a_apply _ shapeCasts_S32_S1x32 (0 : Fin 1) k)
theorem iblk7_apply (t : Fin cfg0.N) (y : S32x3.Idx) : iblk m c 7 t y = (m ((c : Thread nD τ).loc main_arg10)) y :=
  (read_whole7 (V m c main_v26) t y).trans (congrFun (V_v26 m c) y)
theorem iblk8_apply (t : Fin cfg0.N) (q : Fin 3) : iblk m c 8 t (ix2 (0 : Fin 1) q) = (m ((c : Thread nD τ).loc main_arg11)) (ix1 q) :=
  ((read_whole8 (V m c main_v30) t (ix2 (0 : Fin 1) q)).trans (congrFun (V_v30 m c) _)).trans
    (shapeCast_a_1a_apply _ shapeCasts_S3_S1x3 (0 : Fin 1) q)

/-! The weights the body reads off its fused blocks are the arguments' weights, field by field. -/

theorem f_wzx (t : Fin cfg0.N) (l : Fin 256) (k : Fin 32) :
    iblk m c 2 t (ix2 l (⟨k.val, by have := k.isLt; omega⟩ : Fin 96)) = wsum (m ((c : Thread nD τ).loc main_arg4)) (⟨l.val, by have := l.isLt; omega⟩ : Fin 288) k :=
  (iblk2_apply m c t _).trans (fusedX_z _ _ _ l k)
theorem f_wrx (t : Fin cfg0.N) (l : Fin 256) (k : Fin 32) :
    iblk m c 2 t (ix2 l (⟨32 + k.val, by have := k.isLt; omega⟩ : Fin 96)) = wsum (m ((c : Thread nD τ).loc main_arg6)) (⟨l.val, by have := l.isLt; omega⟩ : Fin 288) k :=
  (iblk2_apply m c t _).trans (fusedX_r _ _ _ l k)
theorem f_whx (t : Fin cfg0.N) (l : Fin 256) (k : Fin 32) :
    iblk m c 2 t (ix2 l (⟨64 + k.val, by have := k.isLt; omega⟩ : Fin 96)) = wsum (m ((c : Thread nD τ).loc main_arg8)) (⟨l.val, by have := l.isLt; omega⟩ : Fin 288) k :=
  (iblk2_apply m c t _).trans (fusedX_h _ _ _ l k)
theorem f_wzh (t : Fin cfg0.N) (l : Fin 32) (k : Fin 32) :
    iblk m c 3 t (ix2 l (⟨k.val, by have := k.isLt; omega⟩ : Fin 64)) = wsum (m ((c : Thread nD τ).loc main_arg4)) (⟨256 + l.val, by have := l.isLt; omega⟩ : Fin 288) k :=
  (iblk3_apply m c t _).trans (fusedH_z _ _ l k)
theorem f_wrh (t : Fin cfg0.N) (l : Fin 32) (k : Fin 32) :
    iblk m c 3 t (ix2 l (⟨32 + k.val, by have := k.isLt; omega⟩ : Fin 64)) = wsum (m ((c : Thread nD τ).loc main_arg6)) (⟨256 + l.val, by have := l.isLt; omega⟩ : Fin 288) k :=
  (iblk3_apply m c t _).trans (fusedH_r _ _ l k)
theorem f_bz (t : Fin cfg0.N) (k : Fin 32) :
    iblk m c 4 t (ix2 (0 : Fin 1) (⟨k.val, by have := k.isLt; omega⟩ : Fin 64)) = (m ((c : Thread nD τ).loc main_arg5)) (ix1 k) :=
  (iblk4_apply m c t _).trans (fusedB_z _ _ k)
theorem f_br (t : Fin cfg0.N) (k : Fin 32) :
    iblk m c 4 t (ix2 (0 : Fin 1) (⟨32 + k.val, by have := k.isLt; omega⟩ : Fin 64)) = (m ((c : Thread nD τ).loc main_arg7)) (ix1 k) :=
  (iblk4_apply m c t _).trans (fusedB_r _ _ k)
theorem f_whh (t : Fin cfg0.N) (l : Fin 32) (k : Fin 32) :
    iblk m c 5 t (ix2 l k) = wsum (m ((c : Thread nD τ).loc main_arg8)) (⟨256 + l.val, by have := l.isLt; omega⟩ : Fin 288) k :=
  (iblk5_apply m c t _).trans (wBot_apply _ l k)

set_option maxHeartbeats 2000000 in
theorem weights_eq (t : Fin cfg0.N) :
    fused (iblk m c 2 t) (iblk m c 3 t) (iblk m c 4 t) (iblk m c 5 t) (iblk m c 6 t) = Wof m c :=
  Weights.ext (funext fun l => funext fun k => f_wzx m c t l k) (funext fun l => funext fun k => f_wzh m c t l k)
    (funext fun k => f_bz m c t k) (funext fun l => funext fun k => f_wrx m c t l k)
    (funext fun l => funext fun k => f_wrh m c t l k) (funext fun k => f_br m c t k)
    (funext fun l => funext fun k => f_whx m c t l k) (funext fun l => funext fun k => f_whh m c t l k)
    (funext fun k => iblk6_apply m c t k)

/-- Row `p` of the block of new state that point `t` computes is row `4000·t + p` of the whole new state. -/
theorem row_hn (t : Fin cfg0.N) (p : Fin 4000) (k : Fin 32) :
    k0_pay2 (F := Ideal) (iblk m c 0 t) (iblk m c 1 t) (iblk m c 2 t) (iblk m c 3 t) (iblk m c 4 t) (iblk m c 5 t) (iblk m c 6 t) (ix2 p k)
      = HnOf m c (ix2 (row t p) k) := by
  refine (pay2_apply _ _ _ _ _ _ _ p k).trans ?_
  rw [weights_eq m c t]
  show hnRow (Wof m c) _ _ k = hnRow (Wof m c) (fun l => (m ((c : Thread nD τ).loc main_arg0)) (ix2 (row t p) l)) (fun l => (m ((c : Thread nD τ).loc main_arg3)) (ix2 (row t p) l)) k
  rw [show (fun l : Fin 256 => iblk m c 0 t (ix2 p l)) = fun l => (m ((c : Thread nD τ).loc main_arg0)) (ix2 (row t p) l) from funext fun l => iblk0_apply m c t p l,
    show (fun l : Fin 32 => iblk m c 1 t (ix2 p l)) = fun l => (m ((c : Thread nD τ).loc main_arg3)) (ix2 (row t p) l) from funext fun l => iblk1_apply m c t p l]

/-- Row `p` of the read-out block that point `t` computes is row `4000·t + p` of the whole read-out. -/
theorem row_out (t : Fin cfg0.N) (p : Fin 4000) (q : Fin 3) :
    k0_pay1 (F := Ideal) (k0_pay2 (F := Ideal) (iblk m c 0 t) (iblk m c 1 t) (iblk m c 2 t) (iblk m c 3 t) (iblk m c 4 t) (iblk m c 5 t) (iblk m c 6 t))
        (iblk m c 7 t) (iblk m c 8 t) (ix2 p q)
      = OutOf m c (ix2 (row t p) q) := by
  refine (pay1_apply _ _ _ p q).trans ?_
  show outRow _ _ _ q = outRow (fun k q => (m ((c : Thread nD τ).loc main_arg10)) (ix2 k q)) (fun q => (m ((c : Thread nD τ).loc main_arg11)) (ix1 q)) (fun k => HnOf m c (ix2 (row t p) k)) q
  rw [show (fun (k : Fin 32) (q : Fin 3) => iblk m c 7 t (ix2 k q)) = fun k q => (m ((c : Thread nD τ).loc main_arg10)) (ix2 k q) from funext fun k => funext fun q => iblk7_apply m c t _,
    show (fun q : Fin 3 => iblk m c 8 t (ix2 (0 : Fin 1) q)) = fun q => (m ((c : Thread nD τ).loc main_arg11)) (ix1 q) from funext fun q => iblk8_apply m c t q,
    show (fun k : Fin 32 => k0_pay2 (F := Ideal) (iblk m c 0 t) (iblk m c 1 t) (iblk m c 2 t) (iblk m c 3 t) (iblk m c 4 t) (iblk m c 5 t) (iblk m c 6 t) (ix2 p k))
      = fun k => HnOf m c (ix2 (row t p) k) from funext fun k => row_hn m c t p k]

/-! ## What a point writes back -/

theorem flushed9_eq (t : Fin cfg0.N) :
    (dats m 0 c).flushed 9 t = ((cfg0.win 9).blk t).view.read (Elt Ideal) (HnOf m c) := by
  show (cfg0.win 9).cut (grid0.coords t) ((dats m 0 c).after 9 t) = _
  rw [after0_9]
  unfold out0_9 hn
  rw [View.canon_unit_zero hz]
  simp only [View.ld_unit_zero (S := S4000x256) hz, View.ld_unit_zero (S := S4000x32) hz, View.ld_unit_zero (S := S256x96) hz,
    View.ld_unit_zero (S := S32x64) hz, View.ld_unit_zero (S := S1x64) hz, View.ld_unit_zero (S := S32x32) hz,
    View.ld_unit_zero (S := S1x32) hz]
  funext y
  obtain ⟨p, k, rfl⟩ : ∃ (p : Fin 4000) (k : Fin 32), y = ix2 p k := ⟨y 0, y 1, eq_ix2 y⟩
  exact (row_hn m c t p k).trans (read_rows9 (HnOf m c) t p k).symm

theorem flushed10_eq (t : Fin cfg0.N) :
    (dats m 0 c).flushed 10 t = ((cfg0.win 10).blk t).view.read (Elt Ideal) (OutOf m c) := by
  show (cfg0.win 10).cut (grid0.coords t) ((dats m 0 c).after 10 t) = _
  rw [after0_10]
  unfold out0_10 hn
  rw [View.canon_unit_zero hz]
  simp only [View.ld_unit_zero (S := S4000x256) hz, View.ld_unit_zero (S := S4000x32) hz, View.ld_unit_zero (S := S256x96) hz,
    View.ld_unit_zero (S := S32x64) hz, View.ld_unit_zero (S := S1x64) hz, View.ld_unit_zero (S := S32x32) hz,
    View.ld_unit_zero (S := S1x32) hz, View.ld_unit_zero (S := S32x3) hz, View.ld_unit_zero (S := S1x3) hz]
  funext y
  obtain ⟨p, q, rfl⟩ : ∃ (p : Fin 4000) (q : Fin 3), y = ix2 p q := ⟨y 0, y 1, eq_ix2 y⟩
  exact (row_out m c t p q).trans (read_rows10 (OutOf m c) t p q).symm

/-! ## The bands tile the rows -/

theorem mem_blk9 (t : Fin cfg0.N) (i : S300000x32.Idx) :
    i ∈ ((cfg0.win 9).blk t).view.set ↔ ∀ a : Fin 2, win0_9.index t a * S4000x32.size a ≤ (i a).val ∧ (i a).val < win0_9.index t a * S4000x32.size a + S4000x32.size a := by
  show i ∈ ((View.whole main_v31_0).slice (win0_9.rect t)).set ↔ _
  rw [View.set_slice_whole, Rect.mem_set_unit]
  exact Iff.rfl

theorem mem_blk10 (t : Fin cfg0.N) (i : S300000x3.Idx) :
    i ∈ ((cfg0.win 10).blk t).view.set ↔ ∀ a : Fin 2, win0_10.index t a * S4000x3.size a ≤ (i a).val ∧ (i a).val < win0_10.index t a * S4000x3.size a + S4000x3.size a := by
  show i ∈ ((View.whole main_v31_1).slice (win0_10.rect t)).set ↔ _
  rw [View.set_slice_whole, Rect.mem_set_unit]
  exact Iff.rfl

/-- The point whose band holds row `r`. -/
def pointOf (r : Fin 300000) : Fin cfg0.N := (⟨r.val / 4000, by have := r.isLt; omega⟩ : Fin 75)

theorem cover9 (i : S300000x32.Idx) : ∃ t : Fin cfg0.N, (cfg0.win 9).flush t = true ∧ i ∈ ((cfg0.win 9).blk t).view.set := by
  refine ⟨pointOf (i 0), flush0_9 _, ?_⟩
  rw [mem_blk9]
  obtain ⟨ht, e0a, e0b, e1a, e1b, e2a, e2b, e3a, e3b, e4a, e4b, e5a, e5b, e6a, e6b, e7a, e7b, e8a, e8b, e9a, e9b, e10a, e10b⟩ := idx_facts (pointOf (i 0))
  have hv : (pointOf (i 0)).val = (i 0).val / 4000 := rfl
  have hi0 : (i 0).val < 300000 := (i 0).isLt
  have hi1 : (i 1).val < 32 := (i 1).isLt
  intro a
  match a with
  | ⟨0, _⟩ => show win0_9.index (pointOf (i 0)) (0 : Fin 2) * 4000 ≤ (i 0).val ∧ (i 0).val < win0_9.index (pointOf (i 0)) (0 : Fin 2) * 4000 + 4000; omega
  | ⟨1, _⟩ => show win0_9.index (pointOf (i 0)) (1 : Fin 2) * 32 ≤ (i 1).val ∧ (i 1).val < win0_9.index (pointOf (i 0)) (1 : Fin 2) * 32 + 32; omega

theorem cover10 (i : S300000x3.Idx) : ∃ t : Fin cfg0.N, (cfg0.win 10).flush t = true ∧ i ∈ ((cfg0.win 10).blk t).view.set := by
  refine ⟨pointOf (i 0), flush0_10 _, ?_⟩
  rw [mem_blk10]
  obtain ⟨ht, e0a, e0b, e1a, e1b, e2a, e2b, e3a, e3b, e4a, e4b, e5a, e5b, e6a, e6b, e7a, e7b, e8a, e8b, e9a, e9b, e10a, e10b⟩ := idx_facts (pointOf (i 0))
  have hv : (pointOf (i 0)).val = (i 0).val / 4000 := rfl
  have hi0 : (i 0).val < 300000 := (i 0).isLt
  have hi1 : (i 1).val < 3 := (i 1).isLt
  intro a
  match a with
  | ⟨0, _⟩ => show win0_10.index (pointOf (i 0)) (0 : Fin 2) * 4000 ≤ (i 0).val ∧ (i 0).val < win0_10.index (pointOf (i 0)) (0 : Fin 2) * 4000 + 4000; omega
  | ⟨1, _⟩ => show win0_10.index (pointOf (i 0)) (1 : Fin 2) * 3 ≤ (i 1).val ∧ (i 1).val < win0_10.index (pointOf (i 0)) (1 : Fin 2) * 3 + 3; omega

/-- The two result arrays after the run. -/
theorem final9 : (dats m 0 c).arrAt 9 cfg0.N = HnOf m c :=
  (dats m 0 c).arrAt_eq_of_cover 9 (HnOf m c) (fun t _ => flushed9_eq m c t) cover9

theorem final10 : (dats m 0 c).arrAt 10 cfg0.N = OutOf m c :=
  (dats m 0 c).arrAt_eq_of_cover 10 (OutOf m c) (fun t _ => flushed10_eq m c t) cover10

end

/-- The run of the idealized kernel: the read-out and the new state at their functions of the arguments, the arguments
    unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v31_1) = OutOf m c
      ∧ r.2.mem ((c.tc : Thread nD τ).loc main_v31_0) = HnOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨(h c).1.trans (final10 m c), (h c).2.1.trans (final9 m c), (h c).2.2⟩) (run_named m ρ)

end Cert.KernelIdeal.Hand

end
-- ==== Proof.RefValue.lean ====
/-
  The reference, read entry by entry on the extended reals. It lays the input and the state side by side into one
  [300000, 288] array and multiplies by each gate's summed [288, 32] weight: a sum over 288 columns, which is the sum
  over the 256 input columns plus the sum over the 32 state columns. Its logistic is spelt 1 / (1 + e^(−x)), which
  is the logistic function of the extended reals by definition once the word of 1.0 is read as the number one. So an
  entry of its second result is the one-row recurrent step of the specification at that row, and an entry of its
  first result the read-out of that row.
-/
import proofs.«167448_j50465865728448_2_alg».proof.Proof.Gen.ReferenceIdeal.Read
import proofs.«167448_j50465865728448_2_alg».proof.Proof.LibGru
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.Read
open Idealize.ShloMosaic Idealize.SL.Sem Idealize.ShloMosaic.ValueIdx
open Cert.Gru

variable (x0 : FVec Ideal S300000x256 .f32) (x3 : FVec Ideal S300000x32 .f32)
  (x4 x6 x8 : FVec Ideal S2x288x32 .f32) (x5 x7 x9 : FVec Ideal S32 .f32)
  (x10 : FVec Ideal S32x3 .f32) (x11 : FVec Ideal S3 .f32)

/-! ## The layout steps -/

/-- The input and a second piece side by side: a column below 256 is the input's. -/
theorem cat_left (y : FVec Ideal S300000x32 .f32) (p : Fin 300000) (l : Fin 256) :
    concatenate S300000x288 1 [⟨S300000x256, x0⟩, ⟨S300000x32, y⟩] concatenates_S300000x256_S300000x32_S300000x288_d1
      (ix2 p (⟨l.val, by have := l.isLt; omega⟩ : Fin 288)) = x0 (ix2 p l) :=
  concatenate_pair_apply_left (t := S300000x288) (s₁ := S300000x256) (s₂ := S300000x32) 1 x0 y
    concatenates_S300000x256_S300000x32_S300000x288_d1 (ix2 p (⟨l.val, by have := l.isLt; omega⟩ : Fin 288)) rfl (ix2 p l) (fun b => by
      match b with
      | ⟨0, _⟩ => rfl
      | ⟨1, _⟩ => rfl)

/-- A column from 256 on is the second piece's. -/
theorem cat_right (y : FVec Ideal S300000x32 .f32) (p : Fin 300000) (l : Fin 32) :
    concatenate S300000x288 1 [⟨S300000x256, x0⟩, ⟨S300000x32, y⟩] concatenates_S300000x256_S300000x32_S300000x288_d1
      (ix2 p (⟨256 + l.val, by have := l.isLt; omega⟩ : Fin 288)) = y (ix2 p l) :=
  concatenate_pair_apply_right (t := S300000x288) (s₁ := S300000x256) (s₂ := S300000x32) 1 x0 y
    concatenates_S300000x256_S300000x32_S300000x288_d1 (ix2 p (⟨256 + l.val, by have := l.isLt; omega⟩ : Fin 288)) rfl rfl (ix2 p l)
    (fun b hb => by
      match b with
      | ⟨0, _⟩ => rfl
      | ⟨1, _⟩ => exact absurd rfl hb)
    (by show l.val + 256 = 256 + l.val; omega)

/-- A gate's summed weight at row `l`, column `k`. -/
theorem w5_apply (l : Fin 288) (k : Fin 32) : val_main_v5 (F := Ideal) x4 (ix2 l k) = wsum x4 l k := by
  rw [val_main_v5_apply, val_main_v2_apply, val_main_v1_apply, val_main_v4_apply, val_main_v3_apply]
  have e1 : idx_main_v1 (idx_main_v2 (ix2 l k)) = ix3 (0 : Fin 2) l k := funext fun a => Fin.ext (by
    have hl := l.isLt; have hk := k.isLt
    match a with
    | ⟨0, _⟩ => rfl
    | ⟨1, _⟩ => show (l.val * 32 + k.val) / 32 % 288 = l.val; omega
    | ⟨2, _⟩ => show (l.val * 32 + k.val) % 32 = k.val; omega)
  have e2 : idx_main_v3 (idx_main_v4 (ix2 l k)) = ix3 (1 : Fin 2) l k := funext fun a => Fin.ext (by
    have hl := l.isLt; have hk := k.isLt
    match a with
    | ⟨0, _⟩ => rfl
    | ⟨1, _⟩ => show (l.val * 32 + k.val) / 32 % 288 = l.val; omega
    | ⟨2, _⟩ => show (l.val * 32 + k.val) % 32 = k.val; omega)
  rw [e1, e2]
  rfl

/-- A gate's summed weight at row `l`, column `k`. -/
theorem w20_apply (l : Fin 288) (k : Fin 32) : val_main_v20 (F := Ideal) x6 (ix2 l k) = wsum x6 l k := by
  rw [val_main_v20_apply, val_main_v17_apply, val_main_v16_apply, val_main_v19_apply, val_main_v18_apply]
  have e1 : idx_main_v16 (idx_main_v17 (ix2 l k)) = ix3 (0 : Fin 2) l k := funext fun a => Fin.ext (by
    have hl := l.isLt; have hk := k.isLt
    match a with
    | ⟨0, _⟩ => rfl
    | ⟨1, _⟩ => show (l.val * 32 + k.val) / 32 % 288 = l.val; omega
    | ⟨2, _⟩ => show (l.val * 32 + k.val) % 32 = k.val; omega)
  have e2 : idx_main_v18 (idx_main_v19 (ix2 l k)) = ix3 (1 : Fin 2) l k := funext fun a => Fin.ext (by
    have hl := l.isLt; have hk := k.isLt
    match a with
    | ⟨0, _⟩ => rfl
    | ⟨1, _⟩ => show (l.val * 32 + k.val) / 32 % 288 = l.val; omega
    | ⟨2, _⟩ => show (l.val * 32 + k.val) % 32 = k.val; omega)
  rw [e1, e2]
  rfl

/-- A gate's summed weight at row `l`, column `k`. -/
theorem w37_apply (l : Fin 288) (k : Fin 32) : val_main_v37 (F := Ideal) x8 (ix2 l k) = wsum x8 l k := by
  rw [val_main_v37_apply, val_main_v34_apply, val_main_v33_apply, val_main_v36_apply, val_main_v35_apply]
  have e1 : idx_main_v33 (idx_main_v34 (ix2 l k)) = ix3 (0 : Fin 2) l k := funext fun a => Fin.ext (by
    have hl := l.isLt; have hk := k.isLt
    match a with
    | ⟨0, _⟩ => rfl
    | ⟨1, _⟩ => show (l.val * 32 + k.val) / 32 % 288 = l.val; omega
    | ⟨2, _⟩ => show (l.val * 32 + k.val) % 32 = k.val; omega)
  have e2 : idx_main_v35 (idx_main_v36 (ix2 l k)) = ix3 (1 : Fin 2) l k := funext fun a => Fin.ext (by
    have hl := l.isLt; have hk := k.isLt
    match a with
    | ⟨0, _⟩ => rfl
    | ⟨1, _⟩ => show (l.val * 32 + k.val) / 32 % 288 = l.val; omega
    | ⟨2, _⟩ => show (l.val * 32 + k.val) % 32 = k.val; omega)
  rw [e1, e2]
  rfl

/-- A bias laid out as a row and broadcast down the rows. -/
theorem b8_apply (p : Fin 300000) (k : Fin 32) : val_main_v8 (F := Ideal) x5 (ix2 p k) = x5 (ix1 k) := by
  rw [val_main_v8_apply, val_main_v7_apply]
  exact congrArg x5 (funext fun a => by
    match a with
    | ⟨0, _⟩ => rfl)

/-- A bias laid out as a row and broadcast down the rows. -/
theorem b23_apply (p : Fin 300000) (k : Fin 32) : val_main_v23 (F := Ideal) x7 (ix2 p k) = x7 (ix1 k) := by
  rw [val_main_v23_apply, val_main_v22_apply]
  exact congrArg x7 (funext fun a => by
    match a with
    | ⟨0, _⟩ => rfl)

/-- A bias laid out as a row and broadcast down the rows. -/
theorem b40_apply (p : Fin 300000) (k : Fin 32) : val_main_v40 (F := Ideal) x9 (ix2 p k) = x9 (ix1 k) := by
  rw [val_main_v40_apply, val_main_v39_apply]
  exact congrArg x9 (funext fun a => by
    match a with
    | ⟨0, _⟩ => rfl)

theorem b51_apply (p : Fin 300000) (q : Fin 3) : val_main_v51 (F := Ideal) x11 (ix2 p q) = x11 (ix1 q) := by
  rw [val_main_v51_apply, val_main_v50_apply]
  exact congrArg x11 (funext fun a => by
    match a with
    | ⟨0, _⟩ => rfl)

/-! ## The gates -/

theorem lidx6 (p : Fin 300000) (k : Fin 32) (l : Fin 288) : lidx_main_v6 (ix2 p k) l = ix2 p l := funext fun a => by
  match a with
  | ⟨0, _⟩ => rfl
  | ⟨1, _⟩ => rfl
theorem ridx6 (p : Fin 300000) (k : Fin 32) (l : Fin 288) : ridx_main_v6 (ix2 p k) l = ix2 l k := funext fun a => by
  match a with
  | ⟨0, _⟩ => rfl
  | ⟨1, _⟩ => rfl
theorem lidx21 (p : Fin 300000) (k : Fin 32) (l : Fin 288) : lidx_main_v21 (ix2 p k) l = ix2 p l := funext fun a => by
  match a with
  | ⟨0, _⟩ => rfl
  | ⟨1, _⟩ => rfl
theorem ridx21 (p : Fin 300000) (k : Fin 32) (l : Fin 288) : ridx_main_v21 (ix2 p k) l = ix2 l k := funext fun a => by
  match a with
  | ⟨0, _⟩ => rfl
  | ⟨1, _⟩ => rfl
theorem lidx38 (p : Fin 300000) (k : Fin 32) (l : Fin 288) : lidx_main_v38 (ix2 p k) l = ix2 p l := funext fun a => by
  match a with
  | ⟨0, _⟩ => rfl
  | ⟨1, _⟩ => rfl
theorem ridx38 (p : Fin 300000) (k : Fin 32) (l : Fin 288) : ridx_main_v38 (ix2 p k) l = ix2 l k := funext fun a => by
  match a with
  | ⟨0, _⟩ => rfl
  | ⟨1, _⟩ => rfl

/-- The three gates' weights as the arguments give them. -/
abbrev W : Weights 256 32 := weightsOf (K := 256) (H := 32) (KH := 288) rfl x4 x6 x8 x5 x7 x9

/-- The update gate before the logistic. -/
theorem g9_apply (p : Fin 300000) (k : Fin 32) :
    val_main_v9 (F := Ideal) x0 x3 x4 x5 (ix2 p k)
      = gate (fun l => x0 (ix2 p l)) (fun l => x3 (ix2 p l)) (W x4 x6 x8 x5 x7 x9).wzx (W x4 x6 x8 x5 x7 x9).wzh (W x4 x6 x8 x5 x7 x9).bz k := by
  rw [val_main_v9_apply, val_main_v6_apply, b8_apply]
  simp only [lidx6, ridx6]
  refine gate_of_joined (K := 256) (H := 32) (KH := 288) rfl
    (fun l => val_main_v0 (F := Ideal) x0 x3 (ix2 p l)) (fun l k' => val_main_v5 (F := Ideal) x4 (ix2 l k'))
    (fun l => x0 (ix2 p l)) (fun l => x3 (ix2 p l)) (W x4 x6 x8 x5 x7 x9).wzx (W x4 x6 x8 x5 x7 x9).wzh (W x4 x6 x8 x5 x7 x9).bz k (fun l => ?_) (fun l => ?_) (fun l => ?_) (fun l => ?_)
  · exact cat_left x0 x3 p l
  · exact cat_right x0 x3 p l
  · exact w5_apply x4 _ k
  · exact w5_apply x4 _ k

/-- The reset gate before the logistic. -/
theorem g24_apply (p : Fin 300000) (k : Fin 32) :
    val_main_v24 (F := Ideal) x0 x3 x6 x7 (ix2 p k)
      = gate (fun l => x0 (ix2 p l)) (fun l => x3 (ix2 p l)) (W x4 x6 x8 x5 x7 x9).wrx (W x4 x6 x8 x5 x7 x9).wrh (W x4 x6 x8 x5 x7 x9).br k := by
  rw [val_main_v24_apply, val_main_v21_apply, b23_apply]
  simp only [lidx21, ridx21]
  refine gate_of_joined (K := 256) (H := 32) (KH := 288) rfl
    (fun l => val_main_v0 (F := Ideal) x0 x3 (ix2 p l)) (fun l k' => val_main_v20 (F := Ideal) x6 (ix2 l k'))
    (fun l => x0 (ix2 p l)) (fun l => x3 (ix2 p l)) (W x4 x6 x8 x5 x7 x9).wrx (W x4 x6 x8 x5 x7 x9).wrh (W x4 x6 x8 x5 x7 x9).br k (fun l => ?_) (fun l => ?_) (fun l => ?_) (fun l => ?_)
  · exact cat_left x0 x3 p l
  · exact cat_right x0 x3 p l
  · exact w20_apply x6 _ k
  · exact w20_apply x6 _ k

/-- The reference's spelling of the logistic. -/
theorem logistic_spelt (g : EReal) :
    FloatOps.hostDivf (F := Ideal) (φ := .f32) (FloatOps.ofBits .f32 0x3F800000#32)
      (FloatOps.addf (FloatOps.ofBits .f32 0x3F800000#32) (FloatOps.hostUnary .exp (FloatOps.hostNegf g))) = Ideal.logistic g := by
  show Ideal.div (Ideal.ofBits .f32 0x3F800000#32) (Ideal.ofBits .f32 0x3F800000#32 + Ideal.exp (-g)) = _
  rw [Ideal.ofBits_one_f32]
  rfl

/-- The update gate. -/
theorem z15_apply (p : Fin 300000) (k : Fin 32) :
    val_main_v15 (F := Ideal) x0 x3 x4 x5 (ix2 p k)
      = Ideal.logistic (gate (fun l => x0 (ix2 p l)) (fun l => x3 (ix2 p l)) (W x4 x6 x8 x5 x7 x9).wzx (W x4 x6 x8 x5 x7 x9).wzh (W x4 x6 x8 x5 x7 x9).bz k) := by
  rw [val_main_v15_apply, val_main_v14_apply, val_main_cst_0_apply, val_main_v13_apply, val_main_v12_apply, val_main_cst_apply,
    val_main_v11_apply, val_main_v10_apply, g9_apply x0 x3 x4 x6 x8 x5 x7 x9]
  exact logistic_spelt _

/-- The reset gate. -/
theorem r30_apply (p : Fin 300000) (k : Fin 32) :
    val_main_v30 (F := Ideal) x0 x3 x6 x7 (ix2 p k)
      = Ideal.logistic (gate (fun l => x0 (ix2 p l)) (fun l => x3 (ix2 p l)) (W x4 x6 x8 x5 x7 x9).wrx (W x4 x6 x8 x5 x7 x9).wrh (W x4 x6 x8 x5 x7 x9).br k) := by
  rw [val_main_v30_apply, val_main_v29_apply, val_main_cst_2_apply, val_main_v28_apply, val_main_v27_apply, val_main_cst_1_apply,
    val_main_v26_apply, val_main_v25_apply, g24_apply x0 x3 x4 x6 x8 x5 x7 x9]
  exact logistic_spelt _

/-- The candidate. -/
theorem c42_apply (p : Fin 300000) (k : Fin 32) :
    val_main_v42 (F := Ideal) x0 x3 x6 x7 x8 x9 (ix2 p k)
      = Ideal.tanh (gate (fun l => x0 (ix2 p l))
          (fun l => Ideal.logistic (gate (fun l => x0 (ix2 p l)) (fun l => x3 (ix2 p l)) (W x4 x6 x8 x5 x7 x9).wrx (W x4 x6 x8 x5 x7 x9).wrh
            (W x4 x6 x8 x5 x7 x9).br l) * x3 (ix2 p l))
          (W x4 x6 x8 x5 x7 x9).whx (W x4 x6 x8 x5 x7 x9).whh (W x4 x6 x8 x5 x7 x9).bh k) := by
  rw [val_main_v42_apply, val_main_v41_apply, val_main_v38_apply, b40_apply]
  simp only [lidx38, ridx38]
  refine congrArg Ideal.tanh ?_
  refine gate_of_joined (K := 256) (H := 32) (KH := 288) rfl
    (fun l => val_main_v32 (F := Ideal) x0 x3 x6 x7 (ix2 p l)) (fun l k' => val_main_v37 (F := Ideal) x8 (ix2 l k'))
    (fun l => x0 (ix2 p l))
    (fun l => Ideal.logistic (gate (fun l => x0 (ix2 p l)) (fun l => x3 (ix2 p l)) (W x4 x6 x8 x5 x7 x9).wrx (W x4 x6 x8 x5 x7 x9).wrh (W x4 x6 x8 x5 x7 x9).br l) * x3 (ix2 p l))
    (W x4 x6 x8 x5 x7 x9).whx (W x4 x6 x8 x5 x7 x9).whh (W x4 x6 x8 x5 x7 x9).bh k (fun l => ?_) (fun l => ?_) (fun l => ?_) (fun l => ?_)
  · exact cat_left x0 _ p l
  · refine (cat_right x0 (val_main_v31 (F := Ideal) x0 x3 x6 x7) p l).trans ?_
    rw [val_main_v31_apply, r30_apply x0 x3 x4 x6 x8 x5 x7 x9]
    rfl
  · exact w37_apply x8 _ k
  · exact w37_apply x8 _ k

/-! ## The two results -/

/-- The new state at row `p`, column `k`. -/
theorem hn47_apply (p : Fin 300000) (k : Fin 32) :
    val_main_v47 (F := Ideal) x0 x3 x4 x5 x6 x7 x8 x9 (ix2 p k)
      = hnRow (W x4 x6 x8 x5 x7 x9) (fun l => x0 (ix2 p l)) (fun l => x3 (ix2 p l)) k := by
  rw [val_main_v47_apply, val_main_v43_apply, val_main_v46_apply, val_main_v45_apply, val_main_v44_apply, val_main_cst_3_apply,
    z15_apply x0 x3 x4 x6 x8 x5 x7 x9, c42_apply x0 x3 x4 x6 x8 x5 x7 x9]
  show Ideal.logistic _ * x3 (ix2 p k) + (Ideal.ofBits .f32 0x3F800000#32 - Ideal.logistic _) * Ideal.tanh _ = _
  rw [Ideal.ofBits_one_f32]
  rfl

theorem hn47_eq : val_main_v47 (F := Ideal) x0 x3 x4 x5 x6 x7 x8 x9 = HnG (W x4 x6 x8 x5 x7 x9) x0 x3 := by
  funext i
  obtain ⟨p, k, rfl⟩ : ∃ (p : Fin 300000) (k : Fin 32), i = ix2 p k := ⟨i 0, i 1, eq_ix2 i⟩
  exact hn47_apply x0 x3 x4 x6 x8 x5 x7 x9 p k

/-- The read-out at row `p`, column `q`. -/
theorem out52_apply (p : Fin 300000) (q : Fin 3) :
    val_main_v52 (F := Ideal) x0 x3 x4 x5 x6 x7 x8 x9 x10 x11 (ix2 p q)
      = outRow (fun k q => x10 (ix2 k q)) (fun q => x11 (ix1 q))
          (fun k => HnG (W x4 x6 x8 x5 x7 x9) x0 x3 (ix2 p k)) q := by
  rw [val_main_v52_apply, val_main_v49_apply, b51_apply]
  unfold outRow
  refine congrArg (· + x11 (ix1 q)) (Finset.sum_congr rfl fun k _ => ?_)
  have el : lidx_main_v49 (ix2 p q) k = ix2 p k := funext fun a => by
    match a with
    | ⟨0, _⟩ => rfl
    | ⟨1, _⟩ => rfl
  have er : ridx_main_v49 (ix2 p q) k = ix2 k q := funext fun a => by
    match a with
    | ⟨0, _⟩ => rfl
    | ⟨1, _⟩ => rfl
  rw [el, er, val_main_v48_apply, val_main_call0_v0_apply, val_main_call0_cst_apply, hn47_apply x0 x3 x4 x6 x8 x5 x7 x9]
  rfl

theorem out52_eq : val_main_v52 (F := Ideal) x0 x3 x4 x5 x6 x7 x8 x9 x10 x11 = OutG (W x4 x6 x8 x5 x7 x9) x0 x3 x10 x11 := by
  funext i
  obtain ⟨p, q, rfl⟩ : ∃ (p : Fin 300000) (q : Fin 3), i = ix2 p q := ⟨i 0, i 1, eq_ix2 i⟩
  exact out52_apply x0 x3 x4 x6 x8 x5 x7 x9 x10 x11 p q

end Cert.ReferenceIdeal.RefValue

end
-- ==== Proof.lean ====
/-
  The certificate of a gated-recurrent-unit step computed by one row-banded kernel against its plain reference.

  The kernel fuses the three gates' input weights into one [256, 96] array and the update and reset gates' state
  weights into one [32, 64] array before the launch, and each of its 75 grid points turns 4000 rows of the input and
  of the state into 4000 rows of the new state and of the read-out. The reference lays input and state side by side
  and multiplies by each gate's [288, 32] weight. On the extended reals both are, row by row,
    z = logistic (x·Wzx + h·Wzh + bz),  r = logistic (x·Wrx + h·Wrh + br),
    c = tanh (x·Whx + (r ∘ h)·Whh + bh),  h' = z ∘ h + (1 − z) ∘ c,  out = max(h', 0)·Wl + bl,
  because a sum over 288 columns is the sum over the first 256 plus the sum over the last 32, a change of float format
  is the identity, and the reference's 1 / (1 + e^(−x)) is the logistic function. No entry has to be finite.

  The three frames: each kernel program runs to its end through the launch (the body's two stores cover its two output
  blocks; the pipeline stages and writes back the blocks), leaving its arguments as launched; the reference is a
  straight line of host operations. The idealization rewrote nothing, so that conjunct is trivial.
-/
import proofs.«167448_j50465865728448_2_alg».proof.Defs
import proofs.«167448_j50465865728448_2_alg».proof.Proof.Gen.Kernel
import proofs.«167448_j50465865728448_2_alg».proof.Proof.Gen.KernelIdeal
import proofs.«167448_j50465865728448_2_alg».proof.Proof.Gen.ReferenceIdeal
import proofs.«167448_j50465865728448_2_alg».proof.Proof.Gen.Pre_finite_inputs
import proofs.«167448_j50465865728448_2_alg».proof.Proof.KFrame
import proofs.«167448_j50465865728448_2_alg».proof.Proof.KIValue
import proofs.«167448_j50465865728448_2_alg».proof.Proof.RefValue

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- Both idealized programs end with the read-out and the new state at the same two functions of the arguments. -/
theorem algebraic : Cert.algebraic_KernelIdeal_ReferenceIdeal := by
  intro m ρ m' ρ' _ hagree
  refine ⟨fun c => Cert.KernelIdeal.Hand.OutOf m c, fun c => Cert.KernelIdeal.Hand.HnOf m c,
    Cert.KernelIdeal.Hand.run_value m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10, a11⟩ := hagree c
    refine ((h c).1.trans (Cert.ReferenceIdeal.Read.val_main_v52_eq m' c)).trans ?_
    rw [Cert.ReferenceIdeal.RefValue.out52_eq, a0, a3, a4, a5, a6, a7, a8, a9, a10, a11]
    rfl
  · obtain ⟨a0, a1, a2, a3, a4, a5, a6, a7, a8, a9, a10, a11⟩ := hagree c
    refine ((h c).2.1.trans (Cert.ReferenceIdeal.Read.val_main_v47_eq _ _ _ _ _ _ _ _)).trans ?_
    rw [Cert.ReferenceIdeal.RefValue.hn47_eq, a0, a3, a4, a5, a6, a7, a8, a9]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
